-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S5x8 : Shape := ⟨2, ![5, 8]⟩
abbrev S136x128 : Shape := ⟨2, ![136, 128]⟩
abbrev S128 : Shape := ⟨1, ![128]⟩
abbrev S128x128 : Shape := ⟨2, ![128, 128]⟩
abbrev S2x800000 : Shape := ⟨2, ![2, 800000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S5x8 : S_.BroadcastsInDim S5x8 (![] : Fin 0 → Fin S5x8.rank)
  reducesTo_S5x8_S_d0_1 : S5x8.ReducesTo [0, 1] S_
  bcast_S_S136x128 : S_.BroadcastsInDim S136x128 (![] : Fin 0 → Fin S136x128.rank)
  reducesTo_S136x128_S_d0_1 : S136x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S128x128 .f32) (main_arg15 : FVec F S128 .f32) (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_v48 main_v49 main_v50

def fn_part1 {F : FTy → Type} [FloatOps F] (main_arg4 : FVec F S10000x128 .f32) (main_arg5 : FVec F S5x8 .f32) (main_arg6 : FVec F S136x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S10000x128 .f32 := Host.absf main_arg4
  let main_cst_6 : FVec F S_ .f32 := constant S_ .f32 0x7F800000#32
  let main_v20 : FVec F S10000x128 .f32 := broadcastInDim S10000x128 ![] bcast_S_S10000x128 main_cst_6
  let main_v21 : IVec S10000x128 1 := cmpf .olt main_v19 main_v20
  let main_c_7 : IVec S_ 1 := constantI S_ 1 1#1
  let main_v22 : IVec S_ 1 := (fun x v => Host.reduce IntOp.andi x v reducesTo_S10000x128_S_d0_1 h_S_) main_v21 main_c_7
  let main_v23 : IVec S_ 1 := andi main_v18 main_v22
  let main_v24 : FVec F S5x8 .f32 := Host.absf main_arg5
  let main_cst_8 : FVec F S_ .f32 := constant S_ .f32 0x7F800000#32
  let main_v25 : FVec F S5x8 .f32 := broadcastInDim S5x8 ![] bcast_S_S5x8 main_cst_8
  let main_v26 : IVec S5x8 1 := cmpf .olt main_v24 main_v25
  let main_c_9 : IVec S_ 1 := constantI S_ 1 1#1
  let main_v27 : IVec S_ 1 := (fun x v => Host.reduce IntOp.andi x v reducesTo_S5x8_S_d0_1 h_S_) main_v26 main_c_9
  let main_v28 : IVec S_ 1 := andi main_v23 main_v27
  let main_v29 : FVec F S136x128 .f32 := Host.absf main_arg6
  let main_cst_10 : FVec F S_ .f32 := constant S_ .f32 0x7F800000#32
  let main_v30 : FVec F S136x128 .f32 := broadcastInDim S136x128 ![] bcast_S_S136x128 main_cst_10
  let main_v31 : IVec S136x128 1 := cmpf .olt main_v29 main_v30
  let main_c_11 : IVec S_ 1 := constantI S_ 1 1#1
  let main_v32 : IVec S_ 1 := (fun x v => Host.reduce IntOp.andi x v reducesTo_S136x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x128 .f32) (main_arg2 : FVec F S10000x128 .f32) (main_arg3 : FVec F S10000x128 .f32) (main_arg4 : FVec F S10000x128 .f32) (main_arg5 : FVec F S5x8 .f32) (main_arg6 : FVec F S136x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : IVec S2x800000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x128 .f32 := Host.absf main_arg3
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S5x8 : Shape := ⟨2, ![5, 8]⟩
abbrev S136x128 : Shape := ⟨2, ![136, 128]⟩
abbrev S128 : Shape := ⟨1, ![128]⟩
abbrev S128x128 : Shape := ⟨2, ![128, 128]⟩
abbrev S2x800000 : Shape := ⟨2, ![2, 800000]⟩
abbrev S50000x128 : Shape := ⟨2, ![50000, 128]⟩
abbrev S5x10000x8 : Shape := ⟨3, ![5, 10000, 8]⟩
abbrev S50000x8 : Shape := ⟨2, ![50000, 8]⟩
abbrev S50000x136 : Shape := ⟨2, ![50000, 136]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x136 : Shape := ⟨2, ![800000, 136]⟩
abbrev S1x128 : Shape := ⟨2, ![1, 128]⟩
abbrev S2000x136 : Shape := ⟨2, ![2000, 136]⟩
abbrev S2000x128 : Shape := ⟨2, ![2000, 128]⟩
abbrev S800000x128 : Shape := ⟨2, ![800000, 128]⟩

abbrev nBuf : Space → Nat
  | .hbm => 79
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S5x8, .f32⟩
  | .hbm, ⟨6, _⟩ => ⟨S136x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S2x800000, .i32⟩
  | .hbm, ⟨19, _⟩ => ⟨S50000x128, .f32⟩
  | .hbm, ⟨20, _⟩ => ⟨S5x10000x8, .f32⟩
  | .hbm, ⟨21, _⟩ => ⟨S50000x8, .f32⟩
  | .hbm, ⟨22, _⟩ => ⟨S50000x136, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x136, .f32⟩
  | .hbm, ⟨36, _⟩ => ⟨S_, .f32⟩
  | .hbm, ⟨37, _⟩ => ⟨S50000x136, .f32⟩
  | .hbm, ⟨38, _⟩ => ⟨S800000x1, .i32⟩
  | .hbm, ⟨39, _⟩ => ⟨S50000x136, .f32⟩
  | .hbm, ⟨40, _⟩ => ⟨S50000x136, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S10000x128, .f32⟩
  | .local _ .vmem, ⟨0, _⟩ => ⟨S2000x136, .f32⟩
  | .local _ .vmem, ⟨1, _⟩ => ⟨S2000x136, .f32⟩
  | .local _ .vmem, ⟨2, _⟩ => ⟨S136x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_4 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S10000x128_S10000x128_S10000x128_S10000x128_S10000x128_S50000x128_d0 : Shape.Concatenates [S10000x128, S10000x128, S10000x128, S10000x128, S10000x128] S50000x128 0
  bcast_S5x8_S5x10000x8_0_2 : S5x8.BroadcastsInDim S5x10000x8 (![0, 2] : Fin 2 → Fin S5x10000x8.rank)
  shapeCasts_S5x10000x8_S50000x8 : S5x10000x8.ShapeCasts S50000x8
  concatenates_S50000x128_S50000x8_S50000x136_d1 : Shape.Concatenates [S50000x128, S50000x8] S50000x136 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x136 : S_.BroadcastsInDim S50000x136 (![] : Fin 0 → Fin S50000x136.rank)
  shapeCasts_S128_S1x128 : S128.ShapeCasts S1x128
  inb_S2000x136_S2000x136_0_0 : ∀ a, (![0, 0] : Fin 2 → Nat) a + S2000x136.size a ≤ S2000x136.size a
  h_S2000x136 : 0 < S2000x136.numel
  shapeCasts_S2000x136_S2000x136 : S2000x136.ShapeCasts S2000x136
  bitsLt_bf16_f32 : FTy.bits .bf16 < FTy.bits .f32
  inb_S136x128_S136x128_0_0 : ∀ a, (![0, 0] : Fin 2 → Nat) a + S136x128.size a ≤ S136x128.size a
  h_S136x128 : 0 < S136x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  slices_S50000x128_S10000x128_0_0 : S50000x128.Slices ![0, 0] S10000x128
  gather_S50000x136_S800000x1_S800000x136_1_0_n_n_0_1_1136_wf : GatherDims.WF S50000x136 S800000x1 S800000x136 [1] [0] [] [0] [] 1 ![1, 136]
  scatter_S50000x136_S800000x1_S800000x136_1_0_0_1_wf : ScatterDims.WF S50000x136 S800000x1 S800000x136 [1] [0] [0] 1
  dot_S2000x136_S136x128_S2000x128_1_0_0_1_n_n_wf : DotDims.WF S2000x136 S136x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x136.size a ≤ S50000x136.size a
  hwx0_0 : ∀ i : grid0.Coords, EltTy.bits .f32 = 32 ∨ (Rect.block (s := S50000x136) S2000x136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S136x128.size a ≤ S136x128.size a
  hwx0_1 : ∀ i : grid0.Coords, EltTy.bits .f32 = 32 ∨ (Rect.block (s := S136x128) S136x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def gather_S50000x136_S800000x1_S800000x136_1_0_n_n_0_1_1136 : GatherDims S50000x136 S800000x1 S800000x136 where
  offsetDims := [1]
  collapsedSliceDims := [0]
  operandBatchingDims := []
  startIndicesBatchingDims := []
  startIndexMap := [0]
  indexVectorDim := 1
  sliceSizes := ![1, 136]
  wf := gather_S50000x136_S800000x1_S800000x136_1_0_n_n_0_1_1136_wf
def scatter_S50000x136_S800000x1_S800000x136_1_0_0_1 : ScatterDims S50000x136 S800000x1 S800000x136 where
  updateWindowDims := [1]
  insertedWindowDims := [0]
  scatterDimsToOperandDims := [0]
  indexVectorDim := 1
  wf := scatter_S50000x136_S800000x1_S800000x136_1_0_0_1_wf
def dot_S2000x136_S136x128_S2000x128_1_0_0_1_n_n : DotDims S2000x136 S136x128 S2000x128 where
  lhsContracting := [1]
  rhsContracting := [0]
  lhsNonContracting := [0]
  rhsNonContracting := [1]
  lhsBatch := []
  rhsBatch := []
  wf := dot_S2000x136_S136x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v18) S2000x136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S136x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S5x8 : Shape := ⟨2, ![5, 8]⟩
abbrev S136x128 : Shape := ⟨2, ![136, 128]⟩
abbrev S128 : Shape := ⟨1, ![128]⟩
abbrev S128x128 : Shape := ⟨2, ![128, 128]⟩
abbrev S2x800000 : Shape := ⟨2, ![2, 800000]⟩
abbrev S50000x128 : Shape := ⟨2, ![50000, 128]⟩
abbrev S5 : Shape := ⟨1, ![5]⟩
abbrev S5x10000 : Shape := ⟨2, ![5, 10000]⟩
abbrev S50000 : Shape := ⟨1, ![50000]⟩
abbrev S_ : Shape := ⟨0, ![]⟩
abbrev S50000x1 : Shape := ⟨2, ![50000, 1]⟩
abbrev S50000x8 : Shape := ⟨2, ![50000, 8]⟩
abbrev S50000x136 : Shape := ⟨2, ![50000, 136]⟩
abbrev S1x800000 : Shape := ⟨2, ![1, 800000]⟩
abbrev S800000 : Shape := ⟨1, ![800000]⟩
abbrev S800000x1 : Shape := ⟨2, ![800000, 1]⟩
abbrev S800000x136 : Shape := ⟨2, ![800000, 136]⟩
abbrev S1x128 : Shape := ⟨2, ![1, 128]⟩
abbrev S800000x128 : Shape := ⟨2, ![800000, 128]⟩

abbrev nBuf : Space → Nat
  | .hbm => 122
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S5x8, .f32⟩
  | .hbm, ⟨6, _⟩ => ⟨S136x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S2x800000, .i32⟩
  | .hbm, ⟨19, _⟩ => ⟨S50000x128, .f32⟩
  | .hbm, ⟨20, _⟩ => ⟨S5, .i32⟩
  | .hbm, ⟨21, _⟩ => ⟨S5x10000, .i32⟩
  | .hbm, ⟨22, _⟩ => ⟨S50000, .i32⟩
  | .hbm, ⟨23, _⟩ => ⟨S_, .i32⟩
  | .hbm, ⟨24, _⟩ => ⟨S50000, .i32⟩
  | .hbm, ⟨25, _⟩ => ⟨S50000, .i1⟩
  | .hbm, ⟨26, _⟩ => ⟨S_, .i32⟩
  | .hbm, ⟨27, _⟩ => ⟨S50000, .i32⟩
  | .hbm, ⟨28, _⟩ => ⟨S50000, .i32⟩
  | .hbm, ⟨29, _⟩ => ⟨S50000, .i32⟩
  | .hbm, ⟨30, _⟩ => ⟨S50000x1, .i32⟩
  | .hbm, ⟨31, _⟩ => ⟨S50000x8, .f32⟩
  | .hbm, ⟨32, _⟩ => ⟨S50000x136, .f32⟩
  | .hbm, ⟨33, _⟩ => ⟨S1x800000, .i32⟩
  | .hbm, ⟨34, _⟩ => ⟨S800000, .i32⟩
  | .hbm, ⟨35, _⟩ => ⟨S1x800000, .i32⟩
  | .hbm, ⟨36, _⟩ => ⟨S800000, .i32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x136, .f32⟩
  | .hbm, ⟨46, _⟩ => ⟨S_, .f32⟩
  | .hbm, ⟨47, _⟩ => ⟨S50000x136, .f32⟩
  | .hbm, ⟨48, _⟩ => ⟨S800000x1, .i32⟩
  | .hbm, ⟨49, _⟩ => ⟨S50000x136, .f32⟩
  | .hbm, ⟨50, _⟩ => ⟨S50000x136, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S50000x128, .f32⟩
  | .hbm, ⟨104, _⟩ => ⟨S800000x1, .i32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_c_10 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  concatenates_S10000x128_S10000x128_S10000x128_S10000x128_S10000x128_S50000x128_d0 : Shape.Concatenates [S10000x128, S10000x128, S10000x128, S10000x128, S10000x128] S50000x128 0
  bcast_S5_S5x10000_0 : S5.BroadcastsInDim S5x10000 (![0] : Fin 1 → Fin S5x10000.rank)
  shapeCasts_S5x10000_S50000 : S5x10000.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x8_S50000x136_d1 : Shape.Concatenates [S50000x128, S50000x8] S50000x136 1
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x136 : S_.BroadcastsInDim S50000x136 (![] : Fin 0 → Fin S50000x136.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S50000x128_S10000x128_0_0 : S50000x128.Slices ![0, 0] S10000x128
  gather_S5x8_S50000x1_S50000x8_1_0_n_n_0_1_18_wf : GatherDims.WF S5x8 S50000x1 S50000x8 [1] [0] [] [0] [] 1 ![1, 8]
  gather_S50000x136_S800000x1_S800000x136_1_0_n_n_0_1_1136_wf : GatherDims.WF S50000x136 S800000x1 S800000x136 [1] [0] [] [0] [] 1 ![1, 136]
  scatter_S50000x136_S800000x1_S800000x136_1_0_0_1_wf : ScatterDims.WF S50000x136 S800000x1 S800000x136 [1] [0] [0] 1
  dot_S50000x136_S136x128_S50000x128_1_0_0_1_n_n_wf : DotDims.WF S50000x136 S136x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def gather_S5x8_S50000x1_S50000x8_1_0_n_n_0_1_18 : GatherDims S5x8 S50000x1 S50000x8 where
  offsetDims := [1]
  collapsedSliceDims := [0]
  operandBatchingDims := []
  startIndicesBatchingDims := []
  startIndexMap := [0]
  indexVectorDim := 1
  sliceSizes := ![1, 8]
  wf := gather_S5x8_S50000x1_S50000x8_1_0_n_n_0_1_18_wf
def gather_S50000x136_S800000x1_S800000x136_1_0_n_n_0_1_1136 : GatherDims S50000x136 S800000x1 S800000x136 where
  offsetDims := [1]
  collapsedSliceDims := [0]
  operandBatchingDims := []
  startIndicesBatchingDims := []
  startIndexMap := [0]
  indexVectorDim := 1
  sliceSizes := ![1, 136]
  wf := gather_S50000x136_S800000x1_S800000x136_1_0_n_n_0_1_1136_wf
def scatter_S50000x136_S800000x1_S800000x136_1_0_0_1 : ScatterDims S50000x136 S800000x1 S800000x136 where
  updateWindowDims := [1]
  insertedWindowDims := [0]
  scatterDimsToOperandDims := [0]
  indexVectorDim := 1
  wf := scatter_S50000x136_S800000x1_S800000x136_1_0_0_1_wf
def dot_S50000x136_S136x128_S50000x128_1_0_0_1_n_n : DotDims S50000x136 S136x128 S50000x128 where
  lhsContracting := [1]
  rhsContracting := [0]
  lhsNonContracting := [0]
  rhsNonContracting := [1]
  lhsBatch := []
  rhsBatch := []
  wf := dot_S50000x136_S136x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelBody.lean ====
/-
  The three pallas_call regions of `Kernel`, each at a PARAMETER `V` (what the TensorCore's buffers hold when the region is
  entered), at any float instance `F`.  Every region runs the same two-layer perceptron body on one block of 2000 rows:
  it loads the block `z` of the node features, the two weight matrices and the two bias rows, and stores
  `max (max (z · w₀ + b₀) 0 · w₁ + b₁) 0` whole into the output window's buffer.  Stated here per region: a window's block
  at a grid point read off its array; that an input window's buffer holds that block at every point, fetched there or
  not (the weights and biases are fetched once: their block index never moves); the output buffer after the body as the
  one store's value of the input blocks; the body's triple; and the proof data with its body obligation.
-/
import proofs.«104975_j87686052315190_1_alg».proof.Proof.KernelLaunch
import proofs.«104975_j87686052315190_1_alg».proof.Proof.Gen.Kernel.Skeleton
import proofs.«104975_j87686052315190_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched its
    block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched its
    block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched its
    block index has not moved, and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched its
    block index has not moved, and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not fetched its
    block index has not moved, and the body left the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rz0 : Rect S2000x136 := Rect.unit (s := S2000x136) ![0, 0] S2000x136.size inb_S2000x136_S2000x136_0_0
abbrev rw0 : Rect S136x128 := Rect.unit (s := S136x128) ![0, 0] S136x128.size inb_S136x128_S136x128_0_0
abbrev rb0 : Rect S1x128 := Rect.unit (s := S1x128) ![0, 0] S1x128.size inb_S1x128_S1x128_0_0
abbrev rv0 : Rect S128x128 := Rect.unit (s := S128x128) ![0, 0] S128x128.size inb_S128x128_S128x128_0_0
abbrev ro0 : Rect S2000x128 := Rect.unit (s := S2000x128) ![0, 0] S2000x128.size inb_S2000x128_S2000x128_0_0

/-- The output window's buffer after the body: its one store, of the perceptron's value of the five input blocks. -/
def out0 (x0 : Vec F S2000x136 .f32) (x1 : Vec F S136x128 .f32) (x2 : Vec F S1x128 .f32) (x3 : Vec F S128x128 .f32) (x4 : Vec F S1x128 .f32) : Vec F S2000x128 .f32 :=
  View.canon [⟨ro0, k0_pay1 (View.ld x0 rz0) (View.ld x1 rw0) (View.ld x2 rb0) (View.ld x3 rv0) (View.ld x4 rb0)⟩]

/-- The one store covers the buffer. -/
theorem cover0 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

set_option maxHeartbeats 1000000 in
/-- The body on whole staging buffers, the inputs' at contents `x₀ … x₄` and the output's at anything, runs to the
    continuation holding the inputs' as they were and the output's at `out0` of them. -/
theorem sound_kernel0 (c : Dev nD) (E : Set ℕ) (i : grid0.Coords)
    (arg1 : Memref sig .tc .vmem S2000x136 .f32) (harg1 : arg1.IsWhole) (arg2 : Memref sig .tc .vmem S136x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x136 .f32) (x1 : Vec F S136x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of pipeline 0 on core `c`: the arrays as the region finds them; after the body at point `t` each
    input's buffer at its block and the output's at `out0` of the input blocks; the class-A invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched its
    block index has not moved, and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched its
    block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched its
    block index has not moved, and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched its
    block index has not moved, and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched its
    block index has not moved, and the body left the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rz1 : Rect S2000x128 := Rect.unit (s := S2000x128) ![0, 0] S2000x128.size inb_S2000x128_S2000x128_0_0
abbrev rw1 : Rect S128x128 := Rect.unit (s := S128x128) ![0, 0] S128x128.size inb_S128x128_S128x128_0_0
abbrev rb1 : Rect S1x128 := Rect.unit (s := S1x128) ![0, 0] S1x128.size inb_S1x128_S1x128_0_0
abbrev rv1 : Rect S128x128 := Rect.unit (s := S128x128) ![0, 0] S128x128.size inb_S128x128_S128x128_0_0
abbrev ro1 : Rect S2000x128 := Rect.unit (s := S2000x128) ![0, 0] S2000x128.size inb_S2000x128_S2000x128_0_0

/-- The output window's buffer after the body: its one store, of the perceptron's value of the five input blocks. -/
def out1 (x0 : Vec F S2000x128 .f32) (x1 : Vec F S128x128 .f32) (x2 : Vec F S1x128 .f32) (x3 : Vec F S128x128 .f32) (x4 : Vec F S1x128 .f32) : Vec F S2000x128 .f32 :=
  View.canon [⟨ro1, k1_pay1 (View.ld x0 rz1) (View.ld x1 rw1) (View.ld x2 rb1) (View.ld x3 rv1) (View.ld x4 rb1)⟩]

/-- The one store covers the buffer. -/
theorem cover1 (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

set_option maxHeartbeats 1000000 in
/-- The body on whole staging buffers, the inputs' at contents `x₀ … x₄` and the output's at anything, runs to the
    continuation holding the inputs' as they were and the output's at `out1` of them. -/
theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The proof data of pipeline 1 on core `c`: the arrays as the region finds them; after the body at point `t` each
    input's buffer at its block and the output's at `out1` of the input blocks; the class-A invariant (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not fetched its
    block index has not moved, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not fetched its
    block index has not moved, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not fetched its
    block index has not moved, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not fetched its
    block index has not moved, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not: where it is not fetched its
    block index has not moved, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rz2 : Rect S2000x128 := Rect.unit (s := S2000x128) ![0, 0] S2000x128.size inb_S2000x128_S2000x128_0_0
abbrev rw2 : Rect S128x128 := Rect.unit (s := S128x128) ![0, 0] S128x128.size inb_S128x128_S128x128_0_0
abbrev rb2 : Rect S1x128 := Rect.unit (s := S1x128) ![0, 0] S1x128.size inb_S1x128_S1x128_0_0
abbrev rv2 : Rect S128x128 := Rect.unit (s := S128x128) ![0, 0] S128x128.size inb_S128x128_S128x128_0_0
abbrev ro2 : Rect S2000x128 := Rect.unit (s := S2000x128) ![0, 0] S2000x128.size inb_S2000x128_S2000x128_0_0

/-- The output window's buffer after the body: its one store, of the perceptron's value of the five input blocks. -/
def out2 (x0 : Vec F S2000x128 .f32) (x1 : Vec F S128x128 .f32) (x2 : Vec F S1x128 .f32) (x3 : Vec F S128x128 .f32) (x4 : Vec F S1x128 .f32) : Vec F S2000x128 .f32 :=
  View.canon [⟨ro2, k2_pay1 (View.ld x0 rz2) (View.ld x1 rw2) (View.ld x2 rb2) (View.ld x3 rv2) (View.ld x4 rb2)⟩]

/-- The one store covers the buffer. -/
theorem cover2 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

set_option maxHeartbeats 1000000 in
/-- The body on whole staging buffers, the inputs' at contents `x₀ … x₄` and the output's at anything, runs to the
    continuation holding the inputs' as they were and the output's at `out2` of them. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The proof data of pipeline 2 on core `c`: the arrays as the region finds them; after the body at point `t` each
    input's buffer at its block and the output's at `out2` of the input blocks; the class-A invariant (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.KernelRun.lean ====
/-
  The run of `Kernel`'s @main, at any float instance: four stretches of host operations and the three pallas_call regions
  between them.  The TensorCore's unscoped buffers are followed boundary by boundary from the launch memory: a host stretch
  leaves them at the fold of its operations, a region leaves its output array at what its 25 write-backs put there and
  every other buffer as it found it.  Each region is entered from the whole unscoped buffers (its arrays split out, put
  back at the exit), with the generator register and the core's dues riding along.  The run's post reads every unscoped
  buffer at the last boundary; the frame (no argument array is ever written) and the result buffer are read off it.
-/
import proofs.«104975_j87686052315190_1_alg».proof.Proof.KernelBody

set_option maxRecDepth 16384

noncomputable section

namespace Cert.Kernel.Run

open Cert.Kernel Cert.Kernel.Gen Cert.Kernel.GenP Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of host stretch 0 allocates a buffer. -/
theorem hostOps0_fresh : (hostOps0 : List (HloOp τ sig (Elt F))).Forall fun op => op.fresh = ∅ := by
  simp only [List.Forall]; repeat' constructor
/-- The buffers host stretch 0's operations write: each operation's own result. -/
abbrev hostOps0_W : List (Ref sig .tc) := [main_v0, main_v1, main_v2, main_v3, main_v4, main_v5, main_v6, main_v7, main_c, main_v8, main_v9, main_c_0, main_v10, main_v11, main_v12, main_v13, main_v14, main_cst, main_v15, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The buffers host stretch 1's operations write: each operation's own result. -/
abbrev hostOps1_W : List (Ref sig .tc) := [main_c_1, main_v22, main_v23, main_c_2, main_v24, main_v25, main_v26, main_v27, main_v28, main_cst_3, main_v29, main_v30, main_v31, main_v32, main_v33, main_v34]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The buffers host stretch 2's operations write: each operation's own result. -/
abbrev hostOps2_W : List (Ref sig .tc) := [main_c_4, main_v36, main_v37, main_c_5, main_v38, main_v39, main_v40, main_v41, main_v42, main_cst_6, main_v43, main_v44, main_v45, main_v46, main_v47, main_v48]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 3 allocates a buffer. -/
theorem hostOps3_fresh : (hostOps3 : List (HloOp τ sig (Elt F))).Forall fun op => op.fresh = ∅ := by
  simp only [List.Forall]; repeat' constructor
/-- The buffers host stretch 3's operations write: each operation's own result. -/
abbrev hostOps3_W : List (Ref sig .tc) := [main_v50]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, the output its write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes no buffer but its output array `main_v21`: an input window's array ends as entered. -/
theorem W2_keep (c : Dev nD) (b : Ref sig .tc) (hb : b ≠ main_v21) :
    W2 m c (Proc.devRef .tc b) = W1 m c (Proc.devRef .tc b) := by
  by_cases h : ∃ w, Pipeline.arrRef spec0 w = b
  · obtain ⟨w, rfl⟩ := h
    rw [W2_arr]
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat0 (V1 m) c).arrAt_in w hw _).trans (A_eq0 (V1 m) c w)
  · exact W2_of_ne m c b fun w e => h ⟨w, e⟩

/-- After the next host stretch. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, the output its write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes no buffer but its output array `main_v35`: an input window's array ends as entered. -/
theorem W4_keep (c : Dev nD) (b : Ref sig .tc) (hb : b ≠ main_v35) :
    W4 m c (Proc.devRef .tc b) = W3 m c (Proc.devRef .tc b) := by
  by_cases h : ∃ w, Pipeline.arrRef spec1 w = b
  · obtain ⟨w, rfl⟩ := h
    rw [W4_arr]
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat1 (V3 m) c).arrAt_in w hw _).trans (A_eq1 (V3 m) c w)
  · exact W4_of_ne m c b fun w e => h ⟨w, e⟩

/-- After the next host stretch. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input as entered, the output its write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Region 2 changes no buffer but its output array `main_v49`: an input window's array ends as entered. -/
theorem W6_keep (c : Dev nD) (b : Ref sig .tc) (hb : b ≠ main_v49) :
    W6 m c (Proc.devRef .tc b) = W5 m c (Proc.devRef .tc b) := by
  by_cases h : ∃ w, Pipeline.arrRef spec2 w = b
  · obtain ⟨w, rfl⟩ := h
    rw [W6_arr]
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat2 (V5 m) c).arrAt_in w hw _).trans (A_eq2 (V5 m) c w)
  · exact W6_of_ne m c b fun w e => h ⟨w, e⟩

/-- After the next host stretch. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- A buffer that no host operation writes and that is no region's output ends holding its launch contents. -/
theorem W7_launch (c : Dev nD) (b : Ref sig .tc) (h0 : b ∉ hostOps0_W) (h1 : b ∉ hostOps1_W) (h2 : b ∉ hostOps2_W) (h3 : b ∉ hostOps3_W)
    (hb0 : b ≠ main_v21) (hb1 : b ≠ main_v35) (hb2 : b ≠ main_v49) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_keep m c b hb2
    _ = W4 m c (Proc.devRef .tc b) := StableHlo.after_of_writes_sub hostOps2 _ hostOps2_writes h2
    _ = W3 m c (Proc.devRef .tc b) := W4_keep m c b hb1
    _ = W2 m c (Proc.devRef .tc b) := StableHlo.after_of_writes_sub hostOps1 _ hostOps1_writes h1
    _ = W1 m c (Proc.devRef .tc b) := W2_keep m c b hb0
    _ = W0 m c (Proc.devRef .tc b) := StableHlo.after_of_writes_sub hostOps0 _ hostOps0_writes h0
    _ = m ((c : Thread nD τ).loc b) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are split out of
    the unscoped buffers and put back at the exit contents; the generator register goes into the class invariant and comes
    out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the class invariant and comes
    out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of
    the unscoped buffers and put back at the exit contents; the generator register goes into the class invariant and comes
    out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final memory holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R (F := F) c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME at any float instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      (h c _ (mem_uc main_arg0 (by decide))).trans (W7_launch m c main_arg0 (by decide) (by decide) (by decide) (by decide) (by decide) (by decide) (by decide)),
      (h c _ (mem_uc main_arg1 (by decide))).trans (W7_launch m c main_arg1 (by decide) (by decide) (by decide) (by decide) (by decide) (by decide) (by decide)),
      (h c _ (mem_uc main_arg2 (by decide))).trans (W7_launch m c main_arg2 (by decide) (by decide) (by decide) (by decide) (by decide) (by decide) (by decide)),
      (h c _ (mem_uc main_arg3 (by decide))).trans (W7_launch m c main_arg3 (by decide) (by decide) (by decide) (by decide) (by decide) (by decide) (by decide)),
      (h c _ (mem_uc main_arg4 (by decide))).trans (W7_launch m c main_arg4 (by decide) (by decide) (by decide) (by decide) (by decide) (by decide) (by decide)),
      (h c _ (mem_uc main_arg5 (by decide))).trans (W7_launch m c main_arg5 (by decide) (by decide) (by decide) (by decide) (by decide) (by decide) (by decide)),
      (h c _ (mem_uc main_arg6 (by decide))).trans (W7_launch m c main_arg6 (by decide) (by decide) (by decide) (by decide) (by decide) (by decide) (by decide)),
      (h c _ (mem_uc main_arg7 (by decide))).trans (W7_launch m c main_arg7 (by decide) (by decide) (by decide) (by decide) (by decide) (by decide) (by decide)),
      (h c _ (mem_uc main_arg8 (by decide))).trans (W7_launch m c main_arg8 (by decide) (by decide) (by decide) (by decide) (by decide) (by decide) (by decide)),
      (h c _ (mem_uc main_arg9 (by decide))).trans (W7_launch m c main_arg9 (by decide) (by decide) (by decide) (by decide) (by decide) (by decide) (by decide)),
      (h c _ (mem_uc main_arg10 (by decide))).trans (W7_launch m c main_arg10 (by decide) (by decide) (by decide) (by decide) (by decide) (by decide) (by decide)),
      (h c _ (mem_uc main_arg11 (by decide))).trans (W7_launch m c main_arg11 (by decide) (by decide) (by decide) (by decide) (by decide) (by decide) (by decide)),
      (h c _ (mem_uc main_arg12 (by decide))).trans (W7_launch m c main_arg12 (by decide) (by decide) (by decide) (by decide) (by decide) (by decide) (by decide)),
      (h c _ (mem_uc main_arg13 (by decide))).trans (W7_launch m c main_arg13 (by decide) (by decide) (by decide) (by decide) (by decide) (by decide) (by decide)),
      (h c _ (mem_uc main_arg14 (by decide))).trans (W7_launch m c main_arg14 (by decide) (by decide) (by decide) (by decide) (by decide) (by decide) (by decide)),
      (h c _ (mem_uc main_arg15 (by decide))).trans (W7_launch m c main_arg15 (by decide) (by decide) (by decide) (by decide) (by decide) (by decide) (by decide)),
      (h c _ (mem_uc main_arg16 (by decide))).trans (W7_launch m c main_arg16 (by decide) (by decide) (by decide) (by decide) (by decide) (by decide) (by decide)),
      (h c _ (mem_uc main_arg17 (by decide))).trans (W7_launch m c main_arg17 (by decide) (by decide) (by decide) (by decide) (by decide) (by decide) (by decide)),
      (h c _ (mem_uc main_arg18 (by decide))).trans (W7_launch m c main_arg18 (by decide) (by decide) (by decide) (by decide) (by decide) (by decide) (by decide))⟩)
    (run_all m ρ)

end Cert.Kernel.Run

end
-- ==== Proof.KernelIdealBody.lean ====
/-
  The three pallas_call regions of `KernelIdeal`, each at a PARAMETER `V` (what the TensorCore's buffers hold when the region is
  entered), at any float instance `F`.  Every region runs the same two-layer perceptron body on one block of 2000 rows:
  it loads the block `z` of the node features, the two weight matrices and the two bias rows, and stores
  `max (max (z · w₀ + b₀) 0 · w₁ + b₁) 0` whole into the output window's buffer.  Stated here per region: a window's block
  at a grid point read off its array; that an input window's buffer holds that block at every point, fetched there or
  not (the weights and biases are fetched once: their block index never moves); the output buffer after the body as the
  one store's value of the input blocks; the body's triple; and the proof data with its body obligation.
-/
import proofs.«104975_j87686052315190_1_alg».proof.Proof.KernelIdealLaunch
import proofs.«104975_j87686052315190_1_alg».proof.Proof.Gen.KernelIdeal.Skeleton
import proofs.«104975_j87686052315190_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched its
    block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched its
    block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched its
    block index has not moved, and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched its
    block index has not moved, and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not fetched its
    block index has not moved, and the body left the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rz0 : Rect S2000x136 := Rect.unit (s := S2000x136) ![0, 0] S2000x136.size inb_S2000x136_S2000x136_0_0
abbrev rw0 : Rect S136x128 := Rect.unit (s := S136x128) ![0, 0] S136x128.size inb_S136x128_S136x128_0_0
abbrev rb0 : Rect S1x128 := Rect.unit (s := S1x128) ![0, 0] S1x128.size inb_S1x128_S1x128_0_0
abbrev rv0 : Rect S128x128 := Rect.unit (s := S128x128) ![0, 0] S128x128.size inb_S128x128_S128x128_0_0
abbrev ro0 : Rect S2000x128 := Rect.unit (s := S2000x128) ![0, 0] S2000x128.size inb_S2000x128_S2000x128_0_0

/-- The output window's buffer after the body: its one store, of the perceptron's value of the five input blocks. -/
def out0 (x0 : Vec F S2000x136 .f32) (x1 : Vec F S136x128 .f32) (x2 : Vec F S1x128 .f32) (x3 : Vec F S128x128 .f32) (x4 : Vec F S1x128 .f32) : Vec F S2000x128 .f32 :=
  View.canon [⟨ro0, k0_pay1 (View.ld x0 rz0) (View.ld x1 rw0) (View.ld x2 rb0) (View.ld x3 rv0) (View.ld x4 rb0)⟩]

/-- The one store covers the buffer. -/
theorem cover0 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

set_option maxHeartbeats 1000000 in
/-- The body on whole staging buffers, the inputs' at contents `x₀ … x₄` and the output's at anything, runs to the
    continuation holding the inputs' as they were and the output's at `out0` of them. -/
theorem sound_kernel0 (c : Dev nD) (E : Set ℕ) (i : grid0.Coords)
    (arg1 : Memref sig .tc .vmem S2000x136 .f32) (harg1 : arg1.IsWhole) (arg2 : Memref sig .tc .vmem S136x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x136 .f32) (x1 : Vec F S136x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of pipeline 0 on core `c`: the arrays as the region finds them; after the body at point `t` each
    input's buffer at its block and the output's at `out0` of the input blocks; the class-A invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched its
    block index has not moved, and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched its
    block index has not moved, and the body left the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched its
    block index has not moved, and the body left the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched its
    block index has not moved, and the body left the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched its
    block index has not moved, and the body left the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rz1 : Rect S2000x128 := Rect.unit (s := S2000x128) ![0, 0] S2000x128.size inb_S2000x128_S2000x128_0_0
abbrev rw1 : Rect S128x128 := Rect.unit (s := S128x128) ![0, 0] S128x128.size inb_S128x128_S128x128_0_0
abbrev rb1 : Rect S1x128 := Rect.unit (s := S1x128) ![0, 0] S1x128.size inb_S1x128_S1x128_0_0
abbrev rv1 : Rect S128x128 := Rect.unit (s := S128x128) ![0, 0] S128x128.size inb_S128x128_S128x128_0_0
abbrev ro1 : Rect S2000x128 := Rect.unit (s := S2000x128) ![0, 0] S2000x128.size inb_S2000x128_S2000x128_0_0

/-- The output window's buffer after the body: its one store, of the perceptron's value of the five input blocks. -/
def out1 (x0 : Vec F S2000x128 .f32) (x1 : Vec F S128x128 .f32) (x2 : Vec F S1x128 .f32) (x3 : Vec F S128x128 .f32) (x4 : Vec F S1x128 .f32) : Vec F S2000x128 .f32 :=
  View.canon [⟨ro1, k1_pay1 (View.ld x0 rz1) (View.ld x1 rw1) (View.ld x2 rb1) (View.ld x3 rv1) (View.ld x4 rb1)⟩]

/-- The one store covers the buffer. -/
theorem cover1 (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

set_option maxHeartbeats 1000000 in
/-- The body on whole staging buffers, the inputs' at contents `x₀ … x₄` and the output's at anything, runs to the
    continuation holding the inputs' as they were and the output's at `out1` of them. -/
theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The proof data of pipeline 1 on core `c`: the arrays as the region finds them; after the body at point `t` each
    input's buffer at its block and the output's at `out1` of the input blocks; the class-A invariant (the scoped
    rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2 -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not fetched its
    block index has not moved, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not fetched its
    block index has not moved, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not fetched its
    block index has not moved, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not fetched its
    block index has not moved, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not: where it is not fetched its
    block index has not moved, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rz2 : Rect S2000x128 := Rect.unit (s := S2000x128) ![0, 0] S2000x128.size inb_S2000x128_S2000x128_0_0
abbrev rw2 : Rect S128x128 := Rect.unit (s := S128x128) ![0, 0] S128x128.size inb_S128x128_S128x128_0_0
abbrev rb2 : Rect S1x128 := Rect.unit (s := S1x128) ![0, 0] S1x128.size inb_S1x128_S1x128_0_0
abbrev rv2 : Rect S128x128 := Rect.unit (s := S128x128) ![0, 0] S128x128.size inb_S128x128_S128x128_0_0
abbrev ro2 : Rect S2000x128 := Rect.unit (s := S2000x128) ![0, 0] S2000x128.size inb_S2000x128_S2000x128_0_0

/-- The output window's buffer after the body: its one store, of the perceptron's value of the five input blocks. -/
def out2 (x0 : Vec F S2000x128 .f32) (x1 : Vec F S128x128 .f32) (x2 : Vec F S1x128 .f32) (x3 : Vec F S128x128 .f32) (x4 : Vec F S1x128 .f32) : Vec F S2000x128 .f32 :=
  View.canon [⟨ro2, k2_pay1 (View.ld x0 rz2) (View.ld x1 rw2) (View.ld x2 rb2) (View.ld x3 rv2) (View.ld x4 rb2)⟩]

/-- The one store covers the buffer. -/
theorem cover2 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

set_option maxHeartbeats 1000000 in
/-- The body on whole staging buffers, the inputs' at contents `x₀ … x₄` and the output's at anything, runs to the
    continuation holding the inputs' as they were and the output's at `out2` of them. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The proof data of pipeline 2 on core `c`: the arrays as the region finds them; after the body at point `t` each
    input's buffer at its block and the output's at `out2` of the input blocks; the class-A invariant (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.KernelIdealRun.lean ====
/-
  The run of `KernelIdeal`'s @main, at any float instance: four stretches of host operations and the three pallas_call regions
  between them.  The TensorCore's unscoped buffers are followed boundary by boundary from the launch memory: a host stretch
  leaves them at the fold of its operations, a region leaves its output array at what its 25 write-backs put there and
  every other buffer as it found it.  Each region is entered from the whole unscoped buffers (its arrays split out, put
  back at the exit), with the generator register and the core's dues riding along.  The run's post reads every unscoped
  buffer at the last boundary; the frame (no argument array is ever written) and the result buffer are read off it.
-/
import proofs.«104975_j87686052315190_1_alg».proof.Proof.KernelIdealBody

set_option maxRecDepth 16384

noncomputable section

namespace Cert.KernelIdeal.Run

open Cert.KernelIdeal Cert.KernelIdeal.Gen Cert.KernelIdeal.GenP Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

/-- No operation of host stretch 0 allocates a buffer. -/
theorem hostOps0_fresh : (hostOps0 : List (HloOp τ sig (Elt F))).Forall fun op => op.fresh = ∅ := by
  simp only [List.Forall]; repeat' constructor
/-- The buffers host stretch 0's operations write: each operation's own result. -/
abbrev hostOps0_W : List (Ref sig .tc) := [main_v0, main_v1, main_v2, main_v3, main_v4, main_v5, main_v6, main_v7, main_c, main_v8, main_v9, main_c_0, main_v10, main_v11, main_v12, main_v13, main_v14, main_cst, main_v15, main_v16, main_v17, main_v18, main_v19, main_v20]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The buffers host stretch 1's operations write: each operation's own result. -/
abbrev hostOps1_W : List (Ref sig .tc) := [main_c_1, main_v22, main_v23, main_c_2, main_v24, main_v25, main_v26, main_v27, main_v28, main_cst_3, main_v29, main_v30, main_v31, main_v32, main_v33, main_v34]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The buffers host stretch 2's operations write: each operation's own result. -/
abbrev hostOps2_W : List (Ref sig .tc) := [main_c_4, main_v36, main_v37, main_c_5, main_v38, main_v39, main_v40, main_v41, main_v42, main_cst_6, main_v43, main_v44, main_v45, main_v46, main_v47, main_v48]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 3 allocates a buffer. -/
theorem hostOps3_fresh : (hostOps3 : List (HloOp τ sig (Elt F))).Forall fun op => op.fresh = ∅ := by
  simp only [List.Forall]; repeat' constructor
/-- The buffers host stretch 3's operations write: each operation's own result. -/
abbrev hostOps3_W : List (Ref sig .tc) := [main_v50]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (an input as entered, the output its write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes no buffer but its output array `main_v21`: an input window's array ends as entered. -/
theorem W2_keep (c : Dev nD) (b : Ref sig .tc) (hb : b ≠ main_v21) :
    W2 m c (Proc.devRef .tc b) = W1 m c (Proc.devRef .tc b) := by
  by_cases h : ∃ w, Pipeline.arrRef spec0 w = b
  · obtain ⟨w, rfl⟩ := h
    rw [W2_arr]
    have hw : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat0 (V1 m) c).arrAt_in w hw _).trans (A_eq0 (V1 m) c w)
  · exact W2_of_ne m c b fun w e => h ⟨w, e⟩

/-- After the next host stretch. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (an input as entered, the output its write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes no buffer but its output array `main_v35`: an input window's array ends as entered. -/
theorem W4_keep (c : Dev nD) (b : Ref sig .tc) (hb : b ≠ main_v35) :
    W4 m c (Proc.devRef .tc b) = W3 m c (Proc.devRef .tc b) := by
  by_cases h : ∃ w, Pipeline.arrRef spec1 w = b
  · obtain ⟨w, rfl⟩ := h
    rw [W4_arr]
    have hw : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat1 (V3 m) c).arrAt_in w hw _).trans (A_eq1 (V3 m) c w)
  · exact W4_of_ne m c b fun w e => h ⟨w, e⟩

/-- After the next host stretch. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (an input as entered, the output its write-backs folded),
    every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Region 2 changes no buffer but its output array `main_v49`: an input window's array ends as entered. -/
theorem W6_keep (c : Dev nD) (b : Ref sig .tc) (hb : b ≠ main_v49) :
    W6 m c (Proc.devRef .tc b) = W5 m c (Proc.devRef .tc b) := by
  by_cases h : ∃ w, Pipeline.arrRef spec2 w = b
  · obtain ⟨w, rfl⟩ := h
    rw [W6_arr]
    have hw : (cfg2.win w).isOut = false := by
      match w with
      | ⟨0, _⟩ => rfl
      | ⟨1, _⟩ => rfl
      | ⟨2, _⟩ => rfl
      | ⟨3, _⟩ => rfl
      | ⟨4, _⟩ => rfl
      | ⟨5, _⟩ => exact absurd rfl hb
    exact ((dat2 (V5 m) c).arrAt_in w hw _).trans (A_eq2 (V5 m) c w)
  · exact W6_of_ne m c b fun w e => h ⟨w, e⟩

/-- After the next host stretch. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- A buffer that no host operation writes and that is no region's output ends holding its launch contents. -/
theorem W7_launch (c : Dev nD) (b : Ref sig .tc) (h0 : b ∉ hostOps0_W) (h1 : b ∉ hostOps1_W) (h2 : b ∉ hostOps2_W) (h3 : b ∉ hostOps3_W)
    (hb0 : b ≠ main_v21) (hb1 : b ≠ main_v35) (hb2 : b ≠ main_v49) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_keep m c b hb2
    _ = W4 m c (Proc.devRef .tc b) := StableHlo.after_of_writes_sub hostOps2 _ hostOps2_writes h2
    _ = W3 m c (Proc.devRef .tc b) := W4_keep m c b hb1
    _ = W2 m c (Proc.devRef .tc b) := StableHlo.after_of_writes_sub hostOps1 _ hostOps1_writes h1
    _ = W1 m c (Proc.devRef .tc b) := W2_keep m c b hb0
    _ = W0 m c (Proc.devRef .tc b) := StableHlo.after_of_writes_sub hostOps0 _ hostOps0_writes h0
    _ = m ((c : Thread nD τ).loc b) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at `W1`, left at `W2`. Its arrays are split out of
    the unscoped buffers and put back at the exit contents; the generator register goes into the class invariant and comes
    out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the class invariant and comes
    out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of
    the unscoped buffers and put back at the exit contents; the generator register goes into the class invariant and comes
    out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    final memory holds each unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R (F := F) c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME at any float instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      (h c _ (mem_uc main_arg0 (by decide))).trans (W7_launch m c main_arg0 (by decide) (by decide) (by decide) (by decide) (by decide) (by decide) (by decide)),
      (h c _ (mem_uc main_arg1 (by decide))).trans (W7_launch m c main_arg1 (by decide) (by decide) (by decide) (by decide) (by decide) (by decide) (by decide)),
      (h c _ (mem_uc main_arg2 (by decide))).trans (W7_launch m c main_arg2 (by decide) (by decide) (by decide) (by decide) (by decide) (by decide) (by decide)),
      (h c _ (mem_uc main_arg3 (by decide))).trans (W7_launch m c main_arg3 (by decide) (by decide) (by decide) (by decide) (by decide) (by decide) (by decide)),
      (h c _ (mem_uc main_arg4 (by decide))).trans (W7_launch m c main_arg4 (by decide) (by decide) (by decide) (by decide) (by decide) (by decide) (by decide)),
      (h c _ (mem_uc main_arg5 (by decide))).trans (W7_launch m c main_arg5 (by decide) (by decide) (by decide) (by decide) (by decide) (by decide) (by decide)),
      (h c _ (mem_uc main_arg6 (by decide))).trans (W7_launch m c main_arg6 (by decide) (by decide) (by decide) (by decide) (by decide) (by decide) (by decide)),
      (h c _ (mem_uc main_arg7 (by decide))).trans (W7_launch m c main_arg7 (by decide) (by decide) (by decide) (by decide) (by decide) (by decide) (by decide)),
      (h c _ (mem_uc main_arg8 (by decide))).trans (W7_launch m c main_arg8 (by decide) (by decide) (by decide) (by decide) (by decide) (by decide) (by decide)),
      (h c _ (mem_uc main_arg9 (by decide))).trans (W7_launch m c main_arg9 (by decide) (by decide) (by decide) (by decide) (by decide) (by decide) (by decide)),
      (h c _ (mem_uc main_arg10 (by decide))).trans (W7_launch m c main_arg10 (by decide) (by decide) (by decide) (by decide) (by decide) (by decide) (by decide)),
      (h c _ (mem_uc main_arg11 (by decide))).trans (W7_launch m c main_arg11 (by decide) (by decide) (by decide) (by decide) (by decide) (by decide) (by decide)),
      (h c _ (mem_uc main_arg12 (by decide))).trans (W7_launch m c main_arg12 (by decide) (by decide) (by decide) (by decide) (by decide) (by decide) (by decide)),
      (h c _ (mem_uc main_arg13 (by decide))).trans (W7_launch m c main_arg13 (by decide) (by decide) (by decide) (by decide) (by decide) (by decide) (by decide)),
      (h c _ (mem_uc main_arg14 (by decide))).trans (W7_launch m c main_arg14 (by decide) (by decide) (by decide) (by decide) (by decide) (by decide) (by decide)),
      (h c _ (mem_uc main_arg15 (by decide))).trans (W7_launch m c main_arg15 (by decide) (by decide) (by decide) (by decide) (by decide) (by decide) (by decide)),
      (h c _ (mem_uc main_arg16 (by decide))).trans (W7_launch m c main_arg16 (by decide) (by decide) (by decide) (by decide) (by decide) (by decide) (by decide)),
      (h c _ (mem_uc main_arg17 (by decide))).trans (W7_launch m c main_arg17 (by decide) (by decide) (by decide) (by decide) (by decide) (by decide) (by decide)),
      (h c _ (mem_uc main_arg18 (by decide))).trans (W7_launch m c main_arg18 (by decide) (by decide) (by decide) (by decide) (by decide) (by decide) (by decide))⟩)
    (run_all m ρ)

end Cert.KernelIdeal.Run

end
-- ==== Proof.Spec.lean ====
/-
  The mathematics of one graph-isomorphism layer's dense half, on the extended reals.

  A node's feature row `z` goes through a two-layer perceptron with rectifiers:
  `h k = max (∑ⱼ z j · w₀ j k + b₀ k) 0`, then `out c = max (∑ₖ h k · w₁ k c + b₁ c) 0`.
  `mlp` applies it to every row of an `[N, C]` array; the biases are `[1, 128]` rows.  The result at a row depends on
  that row of `z` alone, so the perceptron of a block of consecutive rows is the block of the perceptron (`mlp_rows`).
  The rectifier's zero is kept as the float word `0x00000000` it is written with on both sides: it is never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The rectifier's threshold: the float word of `0.0`. -/
abbrev zeroW : EReal := Ideal.ofBits .f32 0x00000000#32

/-- One feature row through the perceptron, read at output column `c`. -/
def rowMlp {C : ℕ} (z : Fin C → EReal) (w0 : Fin C → Fin 128 → EReal) (b0 : Fin 128 → EReal)
    (w1 : Fin 128 → Fin 128 → EReal) (b1 : Fin 128 → EReal) (c : Fin 128) : EReal :=
  max ((∑ k : Fin 128, max ((∑ j : Fin C, z j * w0 j k) + b0 k) zeroW * w1 k c) + b1 c) zeroW

/-- The perceptron of every row of an `[N, C]` array. -/
def mlp {N C : ℕ} (z : (⟨2, ![N, C]⟩ : Shape).Idx → EReal) (w0 : (⟨2, ![C, 128]⟩ : Shape).Idx → EReal)
    (b0 : (⟨2, ![1, 128]⟩ : Shape).Idx → EReal) (w1 : (⟨2, ![128, 128]⟩ : Shape).Idx → EReal)
    (b1 : (⟨2, ![1, 128]⟩ : Shape).Idx → EReal) : (⟨2, ![N, 128]⟩ : Shape).Idx → EReal :=
  fun i => rowMlp (fun j => z (ix2 (i 0) j)) (fun j k => w0 (ix2 j k)) (fun k => b0 (ix2 (0 : Fin 1) k))
    (fun k c => w1 (ix2 k c)) (fun c => b1 (ix2 (0 : Fin 1) c)) (i 1)

theorem mlp_apply {N C : ℕ} (z : (⟨2, ![N, C]⟩ : Shape).Idx → EReal) (w0 : (⟨2, ![C, 128]⟩ : Shape).Idx → EReal)
    (b0 : (⟨2, ![1, 128]⟩ : Shape).Idx → EReal) (w1 : (⟨2, ![128, 128]⟩ : Shape).Idx → EReal)
    (b1 : (⟨2, ![1, 128]⟩ : Shape).Idx → EReal) (r : Fin N) (c : Fin 128) :
    mlp z w0 b0 w1 b1 (ix2 r c) = rowMlp (fun j => z (ix2 r j)) (fun j k => w0 (ix2 j k)) (fun k => b0 (ix2 (0 : Fin 1) k))
      (fun k c => w1 (ix2 k c)) (fun c => b1 (ix2 (0 : Fin 1) c)) c := rfl

/-- ROW LOCALITY: if the rows of `x` (an `[M, C]` block) are rows `ρ 0, ρ 1, …` of `z`, the perceptron of `x` at row `r` is the
    perceptron of `z` at row `ρ r`. -/
theorem mlp_rows {M N C : ℕ} (x : (⟨2, ![M, C]⟩ : Shape).Idx → EReal) (z : (⟨2, ![N, C]⟩ : Shape).Idx → EReal)
    (w0 : (⟨2, ![C, 128]⟩ : Shape).Idx → EReal) (b0 : (⟨2, ![1, 128]⟩ : Shape).Idx → EReal)
    (w1 : (⟨2, ![128, 128]⟩ : Shape).Idx → EReal) (b1 : (⟨2, ![1, 128]⟩ : Shape).Idx → EReal)
    (ρ : Fin M → Fin N) (hx : ∀ r j, x (ix2 r j) = z (ix2 (ρ r) j)) (r : Fin M) (c : Fin 128) :
    mlp x w0 b0 w1 b1 (ix2 r c) = mlp z w0 b0 w1 b1 (ix2 (ρ r) c) := by
  rw [mlp_apply, mlp_apply]
  congr 1
  funext j
  exact hx r j

end Cert.Spec

end
-- ==== Proof.KernelIdealPayload.lean ====
/-
  What one region's body stores, at the exact instance: the two-layer perceptron of the block it loaded.
  The body's two matrix products into zero accumulators are, entry by entry, the sums over the contracted position; the
  roundings to bf16 on the way into them are the identity on the extended reals; a `[1, 128]` bias row broadcast down the
  2000 rows of the block adds the row's entry of the column.  So the stored `[2000, 128]` value is `Spec.mlp` of the loaded
  feature block, the two weight matrices and the two bias rows.
-/
import proofs.«104975_j87686052315190_1_alg».proof.Proof.Gen.KernelIdeal.Skeleton
import Idealize.ShloMosaic.Lib.Pipeline.Value
import Idealize.ShloMosaic.Lib.ValueIdx
import Idealize.ShloMosaic.PureOps.Ideal.Laws
import proofs.«104975_j87686052315190_1_alg».proof.Proof.Spec

noncomputable section
open scoped BigOperators
namespace Cert.KernelIdeal.Payload
open Cert.KernelIdeal Cert.KernelIdeal.Gen Idealize.ShloMosaic Idealize.ShloMosaic.ValueIdx

theorem mm136_l0 (i : S2000x128.Idx) (q : dot_S2000x136_S136x128_S2000x128_1_0_0_1_n_n.contr.Idx) : (dot_S2000x136_S136x128_S2000x128_1_0_0_1_n_n.lhsIdx i q 0).val = (i 0).val := by
  unfold DotDims.lhsIdx
  rw [dif_neg (show ¬(0 : Fin S2000x136.rank) ∈ dot_S2000x136_S136x128_S2000x128_1_0_0_1_n_n.lhsBatch by decide), dif_pos (show (0 : Fin S2000x136.rank) ∈ dot_S2000x136_S136x128_S2000x128_1_0_0_1_n_n.lhsNonContracting by decide)]
  rfl
theorem mm136_l1 (i : S2000x128.Idx) (q : dot_S2000x136_S136x128_S2000x128_1_0_0_1_n_n.contr.Idx) : (dot_S2000x136_S136x128_S2000x128_1_0_0_1_n_n.lhsIdx i q 1).val = (q ⟨0, by decide⟩).val :=
  dot_S2000x136_S136x128_S2000x128_1_0_0_1_n_n.lhsIdx_val_of_single rfl i q
theorem mm136_r0 (i : S2000x128.Idx) (q : dot_S2000x136_S136x128_S2000x128_1_0_0_1_n_n.contr.Idx) : (dot_S2000x136_S136x128_S2000x128_1_0_0_1_n_n.rhsIdx i q 0).val = (q ⟨0, by decide⟩).val :=
  dot_S2000x136_S136x128_S2000x128_1_0_0_1_n_n.rhsIdx_val_of_single rfl i q
theorem mm136_r1 (i : S2000x128.Idx) (q : dot_S2000x136_S136x128_S2000x128_1_0_0_1_n_n.contr.Idx) : (dot_S2000x136_S136x128_S2000x128_1_0_0_1_n_n.rhsIdx i q 1).val = (i 1).val := by
  unfold DotDims.rhsIdx
  rw [dif_neg (show ¬(1 : Fin S136x128.rank) ∈ dot_S2000x136_S136x128_S2000x128_1_0_0_1_n_n.rhsBatch by decide), dif_pos (show (1 : Fin S136x128.rank) ∈ dot_S2000x136_S136x128_S2000x128_1_0_0_1_n_n.rhsNonContracting by decide)]
  rfl

/-- The body's matrix product into a zero accumulator, read at row `r` and column `c`: the sum over the 136 contracted
    positions of the row's entry times the column's. -/
theorem mm136 {φ₁ φ₂ : FTy} (x : FVec Ideal S2000x136 φ₁) (w : FVec Ideal S136x128 φ₂) (r : Fin 2000) (c : Fin 128) :
    matmul dot_S2000x136_S136x128_S2000x128_1_0_0_1_n_n none x w (constant S2000x128 .f32 0x00000000#32) (ix2 r c) = ∑ j : Fin 136, x (ix2 r j) * w (ix2 j c) := by
  show FloatOps.matmul dot_S2000x136_S136x128_S2000x128_1_0_0_1_n_n none x w (constant S2000x128 .f32 0x00000000#32) (ix2 r c) = _
  rw [Ideal.matmul_constant_zero_apply, ← Equiv.sum_comp (ValueIdx.contrEquiv1 dot_S2000x136_S136x128_S2000x128_1_0_0_1_n_n 136 rfl rfl).symm]
  refine Finset.sum_congr rfl fun k _ => ?_
  have hk := ValueIdx.contrEquiv1_symm_val dot_S2000x136_S136x128_S2000x128_1_0_0_1_n_n 136 rfl rfl k
  have el : dot_S2000x136_S136x128_S2000x128_1_0_0_1_n_n.lhsIdx (ix2 r c) ((ValueIdx.contrEquiv1 dot_S2000x136_S136x128_S2000x128_1_0_0_1_n_n 136 rfl rfl).symm k) = ix2 r k := funext fun a => Fin.ext (by
    match a with
    | ⟨0, _⟩ => exact mm136_l0 _ _
    | ⟨1, _⟩ => exact (mm136_l1 _ _).trans hk)
  have er : dot_S2000x136_S136x128_S2000x128_1_0_0_1_n_n.rhsIdx (ix2 r c) ((ValueIdx.contrEquiv1 dot_S2000x136_S136x128_S2000x128_1_0_0_1_n_n 136 rfl rfl).symm k) = ix2 k c := funext fun a => Fin.ext (by
    match a with
    | ⟨0, _⟩ => exact (mm136_r0 _ _).trans hk
    | ⟨1, _⟩ => exact mm136_r1 _ _)
  rw [el, er]

theorem mm128_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm128_l1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem mm128_r0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem mm128_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's matrix product into a zero accumulator, read at row `r` and column `c`: the sum over the 128 contracted
    positions of the row's entry times the column's. -/
theorem mm128 {φ₁ φ₂ : FTy} (x : FVec Ideal S2000x128 φ₁) (w : FVec Ideal S128x128 φ₂) (r : Fin 2000) (c : Fin 128) :
    matmul dot_S2000x128_S128x128_S2000x128_1_0_0_1_n_n none x w (constant S2000x128 .f32 0x00000000#32) (ix2 r c) = ∑ j : Fin 128, x (ix2 r j) * w (ix2 j c) := by
  show FloatOps.matmul dot_S2000x128_S128x128_S2000x128_1_0_0_1_n_n none x w (constant S2000x128 .f32 0x00000000#32) (ix2 r c) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r c) ((ValueIdx.contrEquiv1 dot_S2000x128_S128x128_S2000x128_1_0_0_1_n_n 128 rfl rfl).symm k) = ix2 r k := funext fun a => Fin.ext (by
    match a with
    | ⟨0, _⟩ => exact mm128_l0 _ _
    | ⟨1, _⟩ => exact (mm128_l1 _ _).trans hk)
  have er : dot_S2000x128_S128x128_S2000x128_1_0_0_1_n_n.rhsIdx (ix2 r c) ((ValueIdx.contrEquiv1 dot_S2000x128_S128x128_S2000x128_1_0_0_1_n_n 128 rfl rfl).symm k) = ix2 k c := funext fun a => Fin.ext (by
    match a with
    | ⟨0, _⟩ => exact (mm128_r0 _ _).trans hk
    | ⟨1, _⟩ => exact mm128_r1 _ _)
  rw [el, er]

/-- A bias row broadcast down the block's 2000 rows, read at `(r, c)`: the row's entry at column `c`. -/
theorem biasRow {α : Type} (b : S1x128.Idx → α) (r : Fin 2000) (c : Fin 128) :
    broadcastTo S2000x128 b broadcasts_S1x128_S2000x128 (ix2 r c) = b (ix2 (0 : Fin 1) c) :=
  broadcastTo_apply b broadcasts_S1x128_S2000x128 (ix2 r c) (ix2 (0 : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])

/-- Region 0's stored value is the perceptron of its five input blocks. -/
theorem pay0_eq (x0 : Vec Ideal S2000x136 .f32) (x1 : Vec Ideal S136x128 .f32) (x2 : Vec Ideal S1x128 .f32) (x3 : Vec Ideal S128x128 .f32) (x4 : Vec Ideal S1x128 .f32) :
    k0_pay1 (F := Ideal) x0 x1 x2 x3 x4 = Spec.mlp (N := 2000) (C := 136) x0 x1 x2 x3 x4 := by
  funext j
  obtain ⟨r, c, rfl⟩ : ∃ (r : Fin 2000) (c : Fin 128), j = ix2 r c := ⟨j 0, j 1, eq_ix2 j⟩
  rw [Spec.mlp_apply]
  unfold k0_pay1 Spec.rowMlp
  simp only [maximumf_apply, addf_apply, mm128, mm136, truncf_apply, shapeCast_self, biasRow, broadcast_apply]
  rfl

/-- Region 1's stored value is the perceptron of its five input blocks. -/
theorem pay1_eq (x0 : Vec Ideal S2000x128 .f32) (x1 : Vec Ideal S128x128 .f32) (x2 : Vec Ideal S1x128 .f32) (x3 : Vec Ideal S128x128 .f32) (x4 : Vec Ideal S1x128 .f32) :
    k1_pay1 (F := Ideal) x0 x1 x2 x3 x4 = Spec.mlp (N := 2000) (C := 128) x0 x1 x2 x3 x4 := by
  funext j
  obtain ⟨r, c, rfl⟩ : ∃ (r : Fin 2000) (c : Fin 128), j = ix2 r c := ⟨j 0, j 1, eq_ix2 j⟩
  rw [Spec.mlp_apply]
  unfold k1_pay1 Spec.rowMlp
  simp only [maximumf_apply, addf_apply, mm128, mm136, truncf_apply, shapeCast_self, biasRow, broadcast_apply]
  rfl

/-- Region 2's stored value is the perceptron of its five input blocks. -/
theorem pay2_eq (x0 : Vec Ideal S2000x128 .f32) (x1 : Vec Ideal S128x128 .f32) (x2 : Vec Ideal S1x128 .f32) (x3 : Vec Ideal S128x128 .f32) (x4 : Vec Ideal S1x128 .f32) :
    k2_pay1 (F := Ideal) x0 x1 x2 x3 x4 = Spec.mlp (N := 2000) (C := 128) x0 x1 x2 x3 x4 := by
  funext j
  obtain ⟨r, c, rfl⟩ : ∃ (r : Fin 2000) (c : Fin 128), j = ix2 r c := ⟨j 0, j 1, eq_ix2 j⟩
  rw [Spec.mlp_apply]
  unfold k2_pay1 Spec.rowMlp
  simp only [maximumf_apply, addf_apply, mm128, mm136, truncf_apply, shapeCast_self, biasRow, broadcast_apply]
  rfl

end Cert.KernelIdeal.Payload

end
-- ==== Proof.KernelIdealValue.lean ====
/-
  What each region leaves in its output array, at the exact instance: the perceptron of the arrays it read.

  The grid has 25 points; at point `t` the feature window's block is rows `2000·t … 2000·t + 1999` of its array, every weight
  and bias window's block is its whole array, and the output window's block is the same rows of the output array.  The
  body stores the perceptron of its blocks, a perceptron's row depends on the matching feature row alone, so point `t`
  writes back rows `2000·t …` of the perceptron of the whole feature array; the 25 blocks cover all 50000 rows.
-/
import proofs.«104975_j87686052315190_1_alg».proof.Proof.KernelIdealBody
import proofs.«104975_j87686052315190_1_alg».proof.Proof.KernelIdealPayload
import proofs.«104975_j87686052315190_1_alg».proof.Proof.Spec
import Idealize.ShloMosaic.Lib.Pipeline.Value

set_option maxRecDepth 16384

noncomputable section

namespace Cert.KernelIdeal.Value

open Cert.KernelIdeal Cert.KernelIdeal.Gen Cert.KernelIdeal.GenP Cert.KernelIdeal.Regions Cert.KernelIdeal.Payload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `r` of block `t`, as a row of the whole array. -/
def rowAt (t : Nat) (ht : t < 25) (r : Fin 2000) : Fin 50000 := ⟨2000 * t + r.val, by have := r.isLt; omega⟩

/-! ## Region 0 -/

/-- The printed index maps, decided over the grid: the feature and output windows move one block of rows per point, the
    weight and bias windows stay at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 25 :=
  (by decide +kernel : ∀ t : Fin grid0.N, _)

/-- The feature block at point `t`: row `r` is row `2000·t + r` of the array. -/
theorem blkz0 (c : Dev nD) (t : Fin cfg0.N) (ht : t.val < 25) (r : Fin 2000) (j : Fin 136) :
    iblk0 V c 0 t (ix2 r j) = V c main_v18 (ix2 (rowAt t.val ht r) j) := by
  obtain ⟨e0, e1, -⟩ := idx_facts0 t
  show V c main_v18 (((cfg0.win 0).blk t).view.emb (ix2 r j)) = _
  refine congrArg (V c main_v18) (funext fun a => Fin.ext ?_)
  match a with
  | ⟨0, _⟩ => show win0_0.index t (0 : Fin 2) * 2000 + 1 * r.val = 2000 * t.val + r.val; omega
  | ⟨1, _⟩ => show win0_0.index t (1 : Fin 2) * 136 + 1 * j.val = j.val; omega

/-- A weight or bias window's block is its whole array. -/
theorem blkw0_1 (c : Dev nD) (t : Fin cfg0.N) : (iblk0 V c 1 t : S136x128.Idx → EReal) = V c main_arg6 := by
  obtain ⟨-, -, e2, e3, -⟩ := idx_facts0 t
  funext y
  show V c main_arg6 (((cfg0.win 1).blk t).view.emb y) = V c main_arg6 y
  refine congrArg (V c main_arg6) (funext fun a => Fin.ext ?_)
  match a with
  | ⟨0, _⟩ => show win0_1.index t (0 : Fin 2) * 136 + 1 * (y 0).val = (y 0).val; omega
  | ⟨1, _⟩ => show win0_1.index t (1 : Fin 2) * 128 + 1 * (y 1).val = (y 1).val; omega
theorem blkw0_2 (c : Dev nD) (t : Fin cfg0.N) : (iblk0 V c 2 t : S1x128.Idx → EReal) = V c main_v19 := by
  obtain ⟨-, -, -, -, e4, e5, -⟩ := idx_facts0 t
  funext y
  show V c main_v19 (((cfg0.win 2).blk t).view.emb y) = V c main_v19 y
  refine congrArg (V c main_v19) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega
theorem blkw0_3 (c : Dev nD) (t : Fin cfg0.N) : (iblk0 V c 3 t : S128x128.Idx → EReal) = V c main_arg8 := by
  obtain ⟨-, -, -, -, -, -, e6, e7, -⟩ := idx_facts0 t
  funext y
  show V c main_arg8 (((cfg0.win 3).blk t).view.emb y) = V c main_arg8 y
  refine congrArg (V c main_arg8) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem blkw0_4 (c : Dev nD) (t : Fin cfg0.N) : (iblk0 V c 4 t : S1x128.Idx → EReal) = V c main_v20 := by
  obtain ⟨-, -, -, -, -, -, -, -, e8, e9, -⟩ := idx_facts0 t
  funext y
  show V c main_v20 (((cfg0.win 4).blk t).view.emb y) = V c main_v20 y
  refine congrArg (V c main_v20) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT `t` WRITES BACK: rows `2000·t …` of the perceptron of the arrays the region read. -/
theorem flushed0_eq (c : Dev nD) (t : Fin cfg0.N) :
    (dat0 V c).flushed 5 t = ((cfg0.win 5).blk t).view.read (Elt Ideal) (Spec.mlp (N := 50000) (C := 136) (V c main_v18) (V c main_arg6) (V c main_v19) (V c main_arg8) (V c main_v20)) := by
  show (cfg0.win 5).cut (grid0.coords t) ((dat0 V c).after 5 t) = _
  rw [after0_5]
  unfold out0
  rw [View.canon_unit_zero hz]
  simp only [View.ld_unit_zero (S := S2000x136) hz, View.ld_unit_zero (S := S136x128) hz, View.ld_unit_zero (S := S1x128) hz, View.ld_unit_zero (S := S128x128) hz]
  rw [pay0_eq, blkw0_1, blkw0_2, blkw0_3, blkw0_4]
  obtain ⟨-, -, -, -, -, -, -, -, -, -, e10, e11, ht⟩ := idx_facts0 t
  funext y
  obtain ⟨r, c', rfl⟩ : ∃ (r : Fin 2000) (c' : Fin 128), y = ix2 r c' := ⟨y 0, y 1, eq_ix2 y⟩
  refine (Spec.mlp_rows (N := 50000) (C := 136) (iblk0 V c 0 t) (V c main_v18) (V c main_arg6) (V c main_v19) (V c main_arg8) (V c main_v20)
    (rowAt t.val ht) (fun r j => blkz0 V c t ht r j) r c').trans ?_
  show (Spec.mlp (N := 50000) (C := 136) (V c main_v18) (V c main_arg6) (V c main_v19) (V c main_arg8) (V c main_v20)) (ix2 (rowAt t.val ht r) c') = (Spec.mlp (N := 50000) (C := 136) (V c main_v18) (V c main_arg6) (V c main_v19) (V c main_arg8) (V c main_v20)) (((cfg0.win 5).blk t).view.emb (ix2 r c'))
  refine congrArg (Spec.mlp (N := 50000) (C := 136) (V c main_v18) (V c main_arg6) (V c main_v19) (V c main_arg8) (V c main_v20)) (funext fun a => Fin.ext ?_)
  match a with
  | ⟨0, _⟩ => show 2000 * t.val + r.val = win0_5.index t (0 : Fin 2) * 2000 + 1 * r.val; omega
  | ⟨1, _⟩ => show c'.val = win0_5.index t (1 : Fin 2) * 128 + 1 * c'.val; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21).slice (win0_5.rect t)).set ↔ _
  rw [View.set_slice_whole, Rect.mem_set_unit]
  exact Iff.rfl

/-- Every index of the output array is in some point's block: row `ρ` in block `ρ / 2000`. -/
theorem cover0_all (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, e10, e11, ht⟩ := idx_facts0 t
  have htv : t.val = (i 0).val / 2000 := rfl
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after region 0: the perceptron of the arrays it read. -/
theorem final0 (c : Dev nD) : (dat0 V c).arrAt 5 cfg0.N = Spec.mlp (N := 50000) (C := 136) (V c main_v18) (V c main_arg6) (V c main_v19) (V c main_arg8) (V c main_v20) :=
  (dat0 V c).arrAt_eq_of_cover 5 (Spec.mlp (N := 50000) (C := 136) (V c main_v18) (V c main_arg6) (V c main_v19) (V c main_arg8) (V c main_v20)) (fun t _ => flushed0_eq V c t) (cover0_all)

/-! ## Region 1 -/

/-- The printed index maps, decided over the grid: the feature and output windows move one block of rows per point, the
    weight and bias windows stay at block `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 25 :=
  (by decide +kernel : ∀ t : Fin grid1.N, _)

/-- The feature block at point `t`: row `r` is row `2000·t + r` of the array. -/
theorem blkz1 (c : Dev nD) (t : Fin cfg1.N) (ht : t.val < 25) (r : Fin 2000) (j : Fin 128) :
    iblk1 V c 0 t (ix2 r j) = V c main_v32 (ix2 (rowAt t.val ht r) j) := by
  obtain ⟨e0, e1, -⟩ := idx_facts1 t
  show V c main_v32 (((cfg1.win 0).blk t).view.emb (ix2 r j)) = _
  refine congrArg (V c main_v32) (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * j.val = j.val; omega

/-- A weight or bias window's block is its whole array. -/
theorem blkw1_1 (c : Dev nD) (t : Fin cfg1.N) : (iblk1 V c 1 t : S128x128.Idx → EReal) = V c main_arg10 := by
  obtain ⟨-, -, e2, e3, -⟩ := idx_facts1 t
  funext y
  show V c main_arg10 (((cfg1.win 1).blk t).view.emb y) = V c main_arg10 y
  refine congrArg (V c main_arg10) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega
theorem blkw1_2 (c : Dev nD) (t : Fin cfg1.N) : (iblk1 V c 2 t : S1x128.Idx → EReal) = V c main_v33 := by
  obtain ⟨-, -, -, -, e4, e5, -⟩ := idx_facts1 t
  funext y
  show V c main_v33 (((cfg1.win 2).blk t).view.emb y) = V c main_v33 y
  refine congrArg (V c main_v33) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem blkw1_3 (c : Dev nD) (t : Fin cfg1.N) : (iblk1 V c 3 t : S128x128.Idx → EReal) = V c main_arg12 := by
  obtain ⟨-, -, -, -, -, -, e6, e7, -⟩ := idx_facts1 t
  funext y
  show V c main_arg12 (((cfg1.win 3).blk t).view.emb y) = V c main_arg12 y
  refine congrArg (V c main_arg12) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem blkw1_4 (c : Dev nD) (t : Fin cfg1.N) : (iblk1 V c 4 t : S1x128.Idx → EReal) = V c main_v34 := by
  obtain ⟨-, -, -, -, -, -, -, -, e8, e9, -⟩ := idx_facts1 t
  funext y
  show V c main_v34 (((cfg1.win 4).blk t).view.emb y) = V c main_v34 y
  refine congrArg (V c main_v34) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- WHAT POINT `t` WRITES BACK: rows `2000·t …` of the perceptron of the arrays the region read. -/
theorem flushed1_eq (c : Dev nD) (t : Fin cfg1.N) :
    (dat1 V c).flushed 5 t = ((cfg1.win 5).blk t).view.read (Elt Ideal) (Spec.mlp (N := 50000) (C := 128) (V c main_v32) (V c main_arg10) (V c main_v33) (V c main_arg12) (V c main_v34)) := by
  show (cfg1.win 5).cut (grid1.coords t) ((dat1 V c).after 5 t) = _
  rw [after1_5]
  unfold out1
  rw [View.canon_unit_zero hz]
  simp only [View.ld_unit_zero (S := S2000x128) hz, View.ld_unit_zero (S := S128x128) hz, View.ld_unit_zero (S := S1x128) hz, View.ld_unit_zero (S := S128x128) hz]
  rw [pay1_eq, blkw1_1, blkw1_2, blkw1_3, blkw1_4]
  obtain ⟨-, -, -, -, -, -, -, -, -, -, e10, e11, ht⟩ := idx_facts1 t
  funext y
  obtain ⟨r, c', rfl⟩ : ∃ (r : Fin 2000) (c' : Fin 128), y = ix2 r c' := ⟨y 0, y 1, eq_ix2 y⟩
  refine (Spec.mlp_rows (N := 50000) (C := 128) (iblk1 V c 0 t) (V c main_v32) (V c main_arg10) (V c main_v33) (V c main_arg12) (V c main_v34)
    (rowAt t.val ht) (fun r j => blkz1 V c t ht r j) r c').trans ?_
  show (Spec.mlp (N := 50000) (C := 128) (V c main_v32) (V c main_arg10) (V c main_v33) (V c main_arg12) (V c main_v34)) (ix2 (rowAt t.val ht r) c') = (Spec.mlp (N := 50000) (C := 128) (V c main_v32) (V c main_arg10) (V c main_v33) (V c main_arg12) (V c main_v34)) (((cfg1.win 5).blk t).view.emb (ix2 r c'))
  refine congrArg (Spec.mlp (N := 50000) (C := 128) (V c main_v32) (V c main_arg10) (V c main_v33) (V c main_arg12) (V c main_v34)) (funext fun a => Fin.ext ?_)
  match a with
  | ⟨0, _⟩ => show 2000 * t.val + r.val = win1_5.index t (0 : Fin 2) * 2000 + 1 * r.val; omega
  | ⟨1, _⟩ => show c'.val = win1_5.index t (1 : Fin 2) * 128 + 1 * c'.val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v35).slice (win1_5.rect t)).set ↔ _
  rw [View.set_slice_whole, Rect.mem_set_unit]
  exact Iff.rfl

/-- Every index of the output array is in some point's block: row `ρ` in block `ρ / 2000`. -/
theorem cover1_all (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, -, -, -, -, -, -, e10, e11, ht⟩ := idx_facts1 t
  have htv : t.val = (i 0).val / 2000 := rfl
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after region 1: the perceptron of the arrays it read. -/
theorem final1 (c : Dev nD) : (dat1 V c).arrAt 5 cfg1.N = Spec.mlp (N := 50000) (C := 128) (V c main_v32) (V c main_arg10) (V c main_v33) (V c main_arg12) (V c main_v34) :=
  (dat1 V c).arrAt_eq_of_cover 5 (Spec.mlp (N := 50000) (C := 128) (V c main_v32) (V c main_arg10) (V c main_v33) (V c main_arg12) (V c main_v34)) (fun t _ => flushed1_eq V c t) (cover1_all)

/-! ## Region 2 -/

/-- The printed index maps, decided over the grid: the feature and output windows move one block of rows per point, the
    weight and bias windows stay at block `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 ∧ t.val < 25 :=
  (by decide +kernel : ∀ t : Fin grid2.N, _)

/-- The feature block at point `t`: row `r` is row `2000·t + r` of the array. -/
theorem blkz2 (c : Dev nD) (t : Fin cfg2.N) (ht : t.val < 25) (r : Fin 2000) (j : Fin 128) :
    iblk2 V c 0 t (ix2 r j) = V c main_v46 (ix2 (rowAt t.val ht r) j) := by
  obtain ⟨e0, e1, -⟩ := idx_facts2 t
  show V c main_v46 (((cfg2.win 0).blk t).view.emb (ix2 r j)) = _
  refine congrArg (V c main_v46) (funext fun a => Fin.ext ?_)
  match a with
  | ⟨0, _⟩ => show win2_0.index t (0 : Fin 2) * 2000 + 1 * r.val = 2000 * t.val + r.val; omega
  | ⟨1, _⟩ => show win2_0.index t (1 : Fin 2) * 128 + 1 * j.val = j.val; omega

/-- A weight or bias window's block is its whole array. -/
theorem blkw2_1 (c : Dev nD) (t : Fin cfg2.N) : (iblk2 V c 1 t : S128x128.Idx → EReal) = V c main_arg14 := by
  obtain ⟨-, -, e2, e3, -⟩ := idx_facts2 t
  funext y
  show V c main_arg14 (((cfg2.win 1).blk t).view.emb y) = V c main_arg14 y
  refine congrArg (V c main_arg14) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega
theorem blkw2_2 (c : Dev nD) (t : Fin cfg2.N) : (iblk2 V c 2 t : S1x128.Idx → EReal) = V c main_v47 := by
  obtain ⟨-, -, -, -, e4, e5, -⟩ := idx_facts2 t
  funext y
  show V c main_v47 (((cfg2.win 2).blk t).view.emb y) = V c main_v47 y
  refine congrArg (V c main_v47) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega
theorem blkw2_3 (c : Dev nD) (t : Fin cfg2.N) : (iblk2 V c 3 t : S128x128.Idx → EReal) = V c main_arg16 := by
  obtain ⟨-, -, -, -, -, -, e6, e7, -⟩ := idx_facts2 t
  funext y
  show V c main_arg16 (((cfg2.win 3).blk t).view.emb y) = V c main_arg16 y
  refine congrArg (V c main_arg16) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega
theorem blkw2_4 (c : Dev nD) (t : Fin cfg2.N) : (iblk2 V c 4 t : S1x128.Idx → EReal) = V c main_v48 := by
  obtain ⟨-, -, -, -, -, -, -, -, e8, e9, -⟩ := idx_facts2 t
  funext y
  show V c main_v48 (((cfg2.win 4).blk t).view.emb y) = V c main_v48 y
  refine congrArg (V c main_v48) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- WHAT POINT `t` WRITES BACK: rows `2000·t …` of the perceptron of the arrays the region read. -/
theorem flushed2_eq (c : Dev nD) (t : Fin cfg2.N) :
    (dat2 V c).flushed 5 t = ((cfg2.win 5).blk t).view.read (Elt Ideal) (Spec.mlp (N := 50000) (C := 128) (V c main_v46) (V c main_arg14) (V c main_v47) (V c main_arg16) (V c main_v48)) := by
  show (cfg2.win 5).cut (grid2.coords t) ((dat2 V c).after 5 t) = _
  rw [after2_5]
  unfold out2
  rw [View.canon_unit_zero hz]
  simp only [View.ld_unit_zero (S := S2000x128) hz, View.ld_unit_zero (S := S128x128) hz, View.ld_unit_zero (S := S1x128) hz, View.ld_unit_zero (S := S128x128) hz]
  rw [pay2_eq, blkw2_1, blkw2_2, blkw2_3, blkw2_4]
  obtain ⟨-, -, -, -, -, -, -, -, -, -, e10, e11, ht⟩ := idx_facts2 t
  funext y
  obtain ⟨r, c', rfl⟩ : ∃ (r : Fin 2000) (c' : Fin 128), y = ix2 r c' := ⟨y 0, y 1, eq_ix2 y⟩
  refine (Spec.mlp_rows (N := 50000) (C := 128) (iblk2 V c 0 t) (V c main_v46) (V c main_arg14) (V c main_v47) (V c main_arg16) (V c main_v48)
    (rowAt t.val ht) (fun r j => blkz2 V c t ht r j) r c').trans ?_
  show (Spec.mlp (N := 50000) (C := 128) (V c main_v46) (V c main_arg14) (V c main_v47) (V c main_arg16) (V c main_v48)) (ix2 (rowAt t.val ht r) c') = (Spec.mlp (N := 50000) (C := 128) (V c main_v46) (V c main_arg14) (V c main_v47) (V c main_arg16) (V c main_v48)) (((cfg2.win 5).blk t).view.emb (ix2 r c'))
  refine congrArg (Spec.mlp (N := 50000) (C := 128) (V c main_v46) (V c main_arg14) (V c main_v47) (V c main_arg16) (V c main_v48)) (funext fun a => Fin.ext ?_)
  match a with
  | ⟨0, _⟩ => show 2000 * t.val + r.val = win2_5.index t (0 : Fin 2) * 2000 + 1 * r.val; omega
  | ⟨1, _⟩ => show c'.val = win2_5.index t (1 : Fin 2) * 128 + 1 * c'.val; omega

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v49).slice (win2_5.rect t)).set ↔ _
  rw [View.set_slice_whole, Rect.mem_set_unit]
  exact Iff.rfl

/-- Every index of the output array is in some point's block: row `ρ` in block `ρ / 2000`. -/
theorem cover2_all (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 2000, by rw [show cfg2.N = 25 from N_2]; omega⟩
  obtain ⟨-, -, -, -, -, -, -, -, -, -, e10, e11, ht⟩ := idx_facts2 t
  have htv : t.val = (i 0).val / 2000 := rfl
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE OUTPUT ARRAY after region 2: the perceptron of the arrays it read. -/
theorem final2 (c : Dev nD) : (dat2 V c).arrAt 5 cfg2.N = Spec.mlp (N := 50000) (C := 128) (V c main_v46) (V c main_arg14) (V c main_v47) (V c main_arg16) (V c main_v48) :=
  (dat2 V c).arrAt_eq_of_cover 5 (Spec.mlp (N := 50000) (C := 128) (V c main_v46) (V c main_arg14) (V c main_v47) (V c main_arg16) (V c main_v48)) (fun t _ => flushed2_eq V c t) (cover2_all)

end Cert.KernelIdeal.Value

end
-- ==== Proof.KernelIdealHost.lean ====
/-
  What the host operations of `KernelIdeal`'s @main write, stretch by stretch, as functions of what they find (any float instance).
  Before the first region: the node features `h₀` (the five node types' features stacked, each type's embedding row repeated
  beside its 10000 nodes), the edges' sources and destinations, the first layer's aggregate, and the first two biases as
  `[1, 128]` rows.  Between regions: the next aggregate and bias rows.  After the last: the first 10000 rows of its output.
-/
import proofs.«104975_j87686052315190_1_alg».proof.Proof.KernelIdealLaunch
import Idealize.ShloMosaic.Lib.StableHlo.Run

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- The edges' sources: row 0 of the `[2, 800000]` edge list. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- The edges' destinations: row 1. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000
/-- A `[128]` bias as a `[1, 128]` row. -/
def biasRow (b : (⟨S128, .f32⟩ : BufTy).Contents (Elt F)) : (⟨S1x128, .f32⟩ : BufTy).Contents (Elt F) := shapeCast S1x128 b shapeCasts_S128_S1x128
/-- Each node type's embedding row repeated beside its 10000 nodes. -/
def typeCols (a5 : (⟨S5x8, .f32⟩ : BufTy).Contents (Elt F)) : (⟨S50000x8, .f32⟩ : BufTy).Contents (Elt F) :=
  shapeCast S50000x8 (broadcastInDim S5x10000x8 ![0, 2] bcast_S5x8_S5x10000x8_0_2 a5) shapeCasts_S5x10000x8_S50000x8
/-- The five node types' features stacked. -/
def stack5 (a0 a1 a2 a3 a4 : (⟨S10000x128, .f32⟩ : BufTy).Contents (Elt F)) : (⟨S50000x128, .f32⟩ : BufTy).Contents (Elt F) :=
  concatenate S50000x128 0 [⟨S10000x128, a0⟩, ⟨S10000x128, a1⟩, ⟨S10000x128, a2⟩, ⟨S10000x128, a3⟩, ⟨S10000x128, a4⟩] concatenates_S10000x128_S10000x128_S10000x128_S10000x128_S10000x128_S50000x128_d0
/-- The node features `h₀`: the stacked features with `cols` (8 columns) appended. -/
def withCols (x : (⟨S50000x128, .f32⟩ : BufTy).Contents (Elt F)) (cols : (⟨S50000x8, .f32⟩ : BufTy).Contents (Elt F)) : (⟨S50000x136, .f32⟩ : BufTy).Contents (Elt F) :=
  concatenate S50000x136 1 [⟨S50000x128, x⟩, ⟨S50000x8, cols⟩] concatenates_S50000x128_S50000x8_S50000x136_d1

/-- One layer's input from the previous features `h`, at width 136: `h` plus, for every node, the sum of `h`'s rows over its incoming
    edges — the rows gathered at the edges' sources (a negative source counted from the end, then the library's row gather),
    scattered with addition into a zero array at the edges' destinations. -/
def agg136 (h : (⟨S50000x136, .f32⟩ : BufTy).Contents (Elt F)) (s d : (⟨S800000, .i32⟩ : BufTy).Contents (Elt F)) : (⟨S50000x136, .f32⟩ : BufTy).Contents (Elt F) :=
  addf h
    (Host.scatterAdd scatter_S50000x136_S800000x1_S800000x136_1_0_0_1
      (broadcastInDim S50000x136 ![] bcast_S_S50000x136 (constant (F := F) S_ .f32 0x00000000#32))
      (broadcastInDim S800000x1 ![0] bcast_S800000_S800000x1_0 d)
      (Host.gather gather_S50000x136_S800000x1_S800000x136_1_0_n_n_0_1_1136 h
        (broadcastInDim S800000x1 ![0] bcast_S800000_S800000x1_0
          (select
            (cmpi .slt s (broadcastInDim S800000 ![] bcast_S_S800000 (constantI S_ 32 0#32)))
            (addi s (broadcastInDim S800000 ![] bcast_S_S800000 (constantI S_ 32 50000#32)))
            s))))

/-- One layer's input from the previous features `h`, at width 128: `h` plus, for every node, the sum of `h`'s rows over its incoming
    edges — the rows gathered at the edges' sources (a negative source counted from the end, then the library's row gather),
    scattered with addition into a zero array at the edges' destinations. -/
def agg128 (h : (⟨S50000x128, .f32⟩ : BufTy).Contents (Elt F)) (s d : (⟨S800000, .i32⟩ : BufTy).Contents (Elt F)) : (⟨S50000x128, .f32⟩ : BufTy).Contents (Elt F) :=
  addf h
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select
            (cmpi .slt s (broadcastInDim S800000 ![] bcast_S_S800000 (constantI S_ 32 0#32)))
            (addi s (broadcastInDim S800000 ![] bcast_S_S800000 (constantI S_ 32 50000#32)))
            s))))

/-! ## Before region 0 -/

theorem host0_src (X : Valuation τ sig (Elt F)) : StableHlo.after hostOps0 X (Proc.devRef .tc main_v5) = src (X main_arg18) := by
  after_results; rfl
theorem host0_dst (X : Valuation τ sig (Elt F)) : StableHlo.after hostOps0 X (Proc.devRef .tc main_v7) = dst (X main_arg18) := by
  after_results; rfl
theorem host0_b0 (X : Valuation τ sig (Elt F)) : StableHlo.after hostOps0 X (Proc.devRef .tc main_v19) = biasRow (X main_arg7) := by
  after_results; rfl
theorem host0_b1 (X : Valuation τ sig (Elt F)) : StableHlo.after hostOps0 X (Proc.devRef .tc main_v20) = biasRow (X main_arg9) := by
  after_results; rfl
set_option maxHeartbeats 8000000 in
/-- The first region's feature array: the aggregate of `h₀`. -/
theorem host0_feat (X : Valuation τ sig (Elt F)) :
    StableHlo.after hostOps0 X (Proc.devRef .tc main_v18)
      = agg136 (withCols (stack5 (X main_arg0) (X main_arg1) (X main_arg2) (X main_arg3) (X main_arg4)) (typeCols (X main_arg5)))
          (src (X main_arg18)) (dst (X main_arg18)) := by
  after_results; rfl

/-! ## Between the regions -/

set_option maxHeartbeats 4000000 in
/-- Host stretch 1 leaves the next region's feature array at the aggregate of the previous region's output. -/
theorem host1_feat (X : Valuation τ sig (Elt F)) :
    StableHlo.after hostOps1 X (Proc.devRef .tc main_v32) = agg128 (X main_v21) (X main_v5) (X main_v7) := by
  after_results; rfl
theorem host1_b0 (X : Valuation τ sig (Elt F)) : StableHlo.after hostOps1 X (Proc.devRef .tc main_v33) = biasRow (X main_arg11) := by
  after_results; rfl
theorem host1_b1 (X : Valuation τ sig (Elt F)) : StableHlo.after hostOps1 X (Proc.devRef .tc main_v34) = biasRow (X main_arg13) := by
  after_results; rfl

set_option maxHeartbeats 4000000 in
/-- Host stretch 2 leaves the next region's feature array at the aggregate of the previous region's output. -/
theorem host2_feat (X : Valuation τ sig (Elt F)) :
    StableHlo.after hostOps2 X (Proc.devRef .tc main_v46) = agg128 (X main_v35) (X main_v5) (X main_v7) := by
  after_results; rfl
theorem host2_b0 (X : Valuation τ sig (Elt F)) : StableHlo.after hostOps2 X (Proc.devRef .tc main_v47) = biasRow (X main_arg15) := by
  after_results; rfl
theorem host2_b1 (X : Valuation τ sig (Elt F)) : StableHlo.after hostOps2 X (Proc.devRef .tc main_v48) = biasRow (X main_arg17) := by
  after_results; rfl

/-! ## After region 2 -/

/-- The result: the first 10000 rows of the last region's output. -/
def firstRows (x : (⟨S50000x128, .f32⟩ : BufTy).Contents (Elt F)) : (⟨S10000x128, .f32⟩ : BufTy).Contents (Elt F) :=
  extractStridedSlice S10000x128 ![0, 0] x slices_S50000x128_S10000x128_0_0
theorem host3_result (X : Valuation τ sig (Elt F)) : StableHlo.after hostOps3 X (Proc.devRef .tc main_v50) = firstRows (X main_v49) := by
  after_results; rfl

end Cert.KernelIdeal.Host

end
-- ==== Proof.RefLayers.lean ====
/-
  The reference's dense half of a layer, at the exact instance: `max (max (z · w₀ + b₀) 0 · w₁ + b₁) 0` written with the
  host's whole-array operations — two matrix products, each bias broadcast from `[128]` through `[1, 128]` to every row, the
  rectifier as a maximum with a broadcast zero — is the perceptron `Spec.mlp` of every row, the biases read as rows.
  The reference's three layers are this one composition at their inputs, by unfolding the stages' definitions.
-/
import proofs.«104975_j87686052315190_1_alg».proof.Proof.Gen.ReferenceIdeal.Read
import proofs.«104975_j87686052315190_1_alg».proof.Proof.Spec
import Idealize.ShloMosaic.Lib.Pipeline.Value
import Idealize.ShloMosaic.Lib.ValueIdx
import Idealize.ShloMosaic.PureOps.Ideal.Laws

noncomputable section
open scoped BigOperators

namespace Cert.ReferenceIdeal.Layers

open Cert.ReferenceIdeal Cert.ReferenceIdeal.Gen Cert.ReferenceIdeal.Read Idealize.ShloMosaic Idealize.ShloMosaic.ValueIdx

theorem dg136_l0 (i : S50000x128.Idx) (q : dot_S50000x136_S136x128_S50000x128_1_0_0_1_n_n.contr.Idx) : (dot_S50000x136_S136x128_S50000x128_1_0_0_1_n_n.lhsIdx i q 0).val = (i 0).val := by
  unfold DotDims.lhsIdx
  rw [dif_neg (show ¬(0 : Fin S50000x136.rank) ∈ dot_S50000x136_S136x128_S50000x128_1_0_0_1_n_n.lhsBatch by decide), dif_pos (show (0 : Fin S50000x136.rank) ∈ dot_S50000x136_S136x128_S50000x128_1_0_0_1_n_n.lhsNonContracting by decide)]
  rfl
theorem dg136_l1 (i : S50000x128.Idx) (q : dot_S50000x136_S136x128_S50000x128_1_0_0_1_n_n.contr.Idx) : (dot_S50000x136_S136x128_S50000x128_1_0_0_1_n_n.lhsIdx i q 1).val = (q ⟨0, by decide⟩).val :=
  dot_S50000x136_S136x128_S50000x128_1_0_0_1_n_n.lhsIdx_val_of_single rfl i q
theorem dg136_r0 (i : S50000x128.Idx) (q : dot_S50000x136_S136x128_S50000x128_1_0_0_1_n_n.contr.Idx) : (dot_S50000x136_S136x128_S50000x128_1_0_0_1_n_n.rhsIdx i q 0).val = (q ⟨0, by decide⟩).val :=
  dot_S50000x136_S136x128_S50000x128_1_0_0_1_n_n.rhsIdx_val_of_single rfl i q
theorem dg136_r1 (i : S50000x128.Idx) (q : dot_S50000x136_S136x128_S50000x128_1_0_0_1_n_n.contr.Idx) : (dot_S50000x136_S136x128_S50000x128_1_0_0_1_n_n.rhsIdx i q 1).val = (i 1).val := by
  unfold DotDims.rhsIdx
  rw [dif_neg (show ¬(1 : Fin S136x128.rank) ∈ dot_S50000x136_S136x128_S50000x128_1_0_0_1_n_n.rhsBatch by decide), dif_pos (show (1 : Fin S136x128.rank) ∈ dot_S50000x136_S136x128_S50000x128_1_0_0_1_n_n.rhsNonContracting by decide)]
  rfl

/-- The host's matrix product read at row `r` and column `c`: the sum over the 136 contracted positions. -/
theorem dg136 {φ₁ φ₂ : FTy} (x : FVec Ideal S50000x136 φ₁) (w : FVec Ideal S136x128 φ₂) (r : Fin 50000) (c : Fin 128) :
    Host.dotGeneral dot_S50000x136_S136x128_S50000x128_1_0_0_1_n_n none x w (ix2 r c) = ∑ j : Fin 136, x (ix2 r j) * w (ix2 j c) := by
  simp only [Host.dotGeneral]
  rw [Ideal.dotGeneral_apply, ← Equiv.sum_comp (ValueIdx.contrEquiv1 dot_S50000x136_S136x128_S50000x128_1_0_0_1_n_n 136 rfl rfl).symm]
  refine Finset.sum_congr rfl fun k _ => ?_
  have hk := ValueIdx.contrEquiv1_symm_val dot_S50000x136_S136x128_S50000x128_1_0_0_1_n_n 136 rfl rfl k
  have el : dot_S50000x136_S136x128_S50000x128_1_0_0_1_n_n.lhsIdx (ix2 r c) ((ValueIdx.contrEquiv1 dot_S50000x136_S136x128_S50000x128_1_0_0_1_n_n 136 rfl rfl).symm k) = ix2 r k := funext fun a => Fin.ext (by
    match a with
    | ⟨0, _⟩ => exact dg136_l0 _ _
    | ⟨1, _⟩ => exact (dg136_l1 _ _).trans hk)
  have er : dot_S50000x136_S136x128_S50000x128_1_0_0_1_n_n.rhsIdx (ix2 r c) ((ValueIdx.contrEquiv1 dot_S50000x136_S136x128_S50000x128_1_0_0_1_n_n 136 rfl rfl).symm k) = ix2 k c := funext fun a => Fin.ext (by
    match a with
    | ⟨0, _⟩ => exact (dg136_r0 _ _).trans hk
    | ⟨1, _⟩ => exact dg136_r1 _ _)
  rw [el, er]

theorem dg128_l0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dg128_l1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem dg128_r0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem dg128_r1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product read at row `r` and column `c`: the sum over the 128 contracted positions. -/
theorem dg128 {φ₁ φ₂ : FTy} (x : FVec Ideal S50000x128 φ₁) (w : FVec Ideal S128x128 φ₂) (r : Fin 50000) (c : Fin 128) :
    Host.dotGeneral dot_S50000x128_S128x128_S50000x128_1_0_0_1_n_n none x w (ix2 r c) = ∑ j : Fin 128, x (ix2 r j) * w (ix2 j c) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r c) ((ValueIdx.contrEquiv1 dot_S50000x128_S128x128_S50000x128_1_0_0_1_n_n 128 rfl rfl).symm k) = ix2 r k := funext fun a => Fin.ext (by
    match a with
    | ⟨0, _⟩ => exact dg128_l0 _ _
    | ⟨1, _⟩ => exact (dg128_l1 _ _).trans hk)
  have er : dot_S50000x128_S128x128_S50000x128_1_0_0_1_n_n.rhsIdx (ix2 r c) ((ValueIdx.contrEquiv1 dot_S50000x128_S128x128_S50000x128_1_0_0_1_n_n 128 rfl rfl).symm k) = ix2 k c := funext fun a => Fin.ext (by
    match a with
    | ⟨0, _⟩ => exact (dg128_r0 _ _).trans hk
    | ⟨1, _⟩ => exact dg128_r1 _ _)
  rw [el, er]

/-- A `[128]` bias broadcast to `[1, 128]` and then to every one of the 50000 rows, read at `(r, c)`: the bias at `c`. -/
theorem biasAll {α : Type} (b : S128.Idx → α) (r : Fin 50000) (c : Fin 128) :
    broadcastInDim S50000x128 ![0, 1] bcast_S1x128_S50000x128_0_1 (broadcastInDim S1x128 ![1] bcast_S128_S1x128_1 b) (ix2 r c) = b (ix1 c) := by
  rw [broadcastInDim_apply _ bcast_S1x128_S50000x128_0_1 _ (ix2 r c) (ix2 (0 : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  exact broadcastInDim_apply _ bcast_S128_S1x128_1 b (ix2 (0 : Fin 1) c) (ix1 c) (fun a => match a with
    | ⟨0, _⟩ => by show c.val = if (128 : Nat) = 1 then 0 else c.val; rw [if_neg (by decide)])

/-- The broadcast zero, read anywhere: the float word of `0.0`. -/
theorem zerosAll (i : S50000x128.Idx) :
    broadcastInDim S50000x128 ![] bcast_S_S50000x128 (constant (F := Ideal) S_ .f32 0x00000000#32) i = Ideal.ofBits .f32 0x00000000#32 :=
  broadcastInDim_apply _ bcast_S_S50000x128 (constant (F := Ideal) S_ .f32 0x00000000#32) i (fun a => a.elim0) (fun a => a.elim0)

/-- The broadcast zero as a function: constant. -/
theorem zerosFn : broadcastInDim S50000x128 ![] bcast_S_S50000x128 (constant (F := Ideal) S_ .f32 0x00000000#32) = fun _ => Ideal.ofBits .f32 0x00000000#32 :=
  funext zerosAll

/-- The bias broadcast to every row, as a function of the index: the bias at the index's column. -/
theorem biasFn {α : Type} (b : S128.Idx → α) :
    broadcastInDim S50000x128 ![0, 1] bcast_S1x128_S50000x128_0_1 (broadcastInDim S1x128 ![1] bcast_S128_S1x128_1 b) = fun i => b (ix1 (i 1)) :=
  funext fun i => by
    obtain ⟨r, c, rfl⟩ : ∃ (r : Fin 50000) (c : Fin 128), i = ix2 r c := ⟨i 0, i 1, eq_ix2 i⟩
    exact biasAll b r c

/-- A `[128]` bias as the `[1, 128]` row the perceptron reads. -/
def rowOf (b : S128.Idx → EReal) : S1x128.Idx → EReal := fun i => b (ix1 (i 1))

/-- The host's layer over a 136-wide input. -/
def refMlp136 (z : FVec Ideal S50000x136 .f32) (w0 : FVec Ideal S136x128 .f32) (b0 : FVec Ideal S128 .f32) (w1 : FVec Ideal S128x128 .f32) (b1 : FVec Ideal S128 .f32) : FVec Ideal S50000x128 .f32 :=
  maximumf (addf (Host.dotGeneral dot_S50000x128_S128x128_S50000x128_1_0_0_1_n_n none
      (maximumf (addf (Host.dotGeneral dot_S50000x136_S136x128_S50000x128_1_0_0_1_n_n none z w0)
          (broadcastInDim S50000x128 ![0, 1] bcast_S1x128_S50000x128_0_1 (broadcastInDim S1x128 ![1] bcast_S128_S1x128_1 b0)))
        (broadcastInDim S50000x128 ![] bcast_S_S50000x128 (constant (F := Ideal) S_ .f32 0x00000000#32))) w1)
      (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

/-- The host's layer over a 128-wide input. -/
def refMlp128 (z : FVec Ideal S50000x128 .f32) (w0 : FVec Ideal S128x128 .f32) (b0 : FVec Ideal S128 .f32) (w1 : FVec Ideal S128x128 .f32) (b1 : FVec Ideal S128 .f32) : FVec Ideal S50000x128 .f32 :=
  maximumf (addf (Host.dotGeneral dot_S50000x128_S128x128_S50000x128_1_0_0_1_n_n none
      (maximumf (addf (Host.dotGeneral dot_S50000x128_S128x128_S50000x128_1_0_0_1_n_n none z w0)
          (broadcastInDim S50000x128 ![0, 1] bcast_S1x128_S50000x128_0_1 (broadcastInDim S1x128 ![1] bcast_S128_S1x128_1 b0)))
        (broadcastInDim S50000x128 ![] bcast_S_S50000x128 (constant (F := Ideal) S_ .f32 0x00000000#32))) w1)
      (broadcastInDim S50000x128 ![0, 1] bcast_S1x128_S50000x128_0_1 (broadcastInDim S1x128 ![1] bcast_S128_S1x128_1 b1)))
    (broadcastInDim S50000x128 ![] bcast_S_S50000x128 (constant (F := Ideal) S_ .f32 0x00000000#32))

theorem refMlp136_eq (z : FVec Ideal S50000x136 .f32) (w0 : FVec Ideal S136x128 .f32) (b0 : FVec Ideal S128 .f32) (w1 : FVec Ideal S128x128 .f32) (b1 : FVec Ideal S128 .f32) :
    refMlp136 z w0 b0 w1 b1 = Spec.mlp (N := 50000) (C := 136) z w0 (rowOf b0) w1 (rowOf b1) := by
  funext j
  obtain ⟨r, c, rfl⟩ : ∃ (r : Fin 50000) (c : Fin 128), j = ix2 r c := ⟨j 0, j 1, eq_ix2 j⟩
  rw [Spec.mlp_apply]
  unfold refMlp136 Spec.rowMlp rowOf
  rw [zerosFn, biasFn b0, biasFn b1]
  simp only [maximumf_apply, addf_apply, dg128, dg136]

theorem refMlp128_eq (z : FVec Ideal S50000x128 .f32) (w0 : FVec Ideal S128x128 .f32) (b0 : FVec Ideal S128 .f32) (w1 : FVec Ideal S128x128 .f32) (b1 : FVec Ideal S128 .f32) :
    refMlp128 z w0 b0 w1 b1 = Spec.mlp (N := 50000) (C := 128) z w0 (rowOf b0) w1 (rowOf b1) := by
  funext j
  obtain ⟨r, c, rfl⟩ : ∃ (r : Fin 50000) (c : Fin 128), j = ix2 r c := ⟨j 0, j 1, eq_ix2 j⟩
  rw [Spec.mlp_apply]
  unfold refMlp128 Spec.rowMlp rowOf
  rw [zerosFn, biasFn b0, biasFn b1]
  simp only [maximumf_apply, addf_apply, dg128]

end Cert.ReferenceIdeal.Layers

end
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.Bridge.lean ====
/-
  The two programs' host sides meet, at the exact instance.

  * A node's type is its number divided by 10000, so gathering the type-embedding table at the reference's index array
    (`0 … 4` each repeated 10000 times) gives each node its type's row — what the kernel writes as the table broadcast along a
    new axis of length 10000 and reshaped.
  * A `[128]` bias reshaped to `[1, 128]` is the row the perceptron reads.
  * Everything else the reference does between its dense halves — slicing the edge list, the gather at the sources, the
    scatter-add at the destinations, the sum with the features — is written by the kernel's @main with the same
    operations: the two are one term.
  So the reference's result is the first 10000 rows of three rounds of "aggregate, then perceptron" from the node features.
-/
import proofs.«104975_j87686052315190_1_alg».proof.Proof.RefLayers
import proofs.«104975_j87686052315190_1_alg».proof.Proof.KernelIdealHost
import proofs.«104975_j87686052315190_1_alg».proof.Proof.LibRowGatherScatter
import Idealize.ShloMosaic.Lib.Pipeline.Value
import Idealize.ShloMosaic.Lib.ValueIdx

noncomputable section

namespace Cert.Bridge

open Cert.ReferenceIdeal Cert.ReferenceIdeal.Gen Cert.ReferenceIdeal.Read Cert.ReferenceIdeal.Layers
open Idealize.ShloMosaic Idealize.ShloMosaic.ValueIdx Cert.Lib.RowGatherScatter

/-! ## The node types -/

/-- For a type number `q < 5` the reference's "count a negative index from the end" step leaves `q`. -/
theorem sel5 : ∀ q : Fin 5, Scalar.select (IntOp.cmpi .slt (BitVec.ofNat 32 q.val) 0#32) (IntOp.addi (BitVec.ofNat 32 q.val) 5#32) (BitVec.ofNat 32 q.val) = BitVec.ofNat 32 q.val := by
  decide
/-- and read as a signed integer and clamped into `0 … 4` it is `q`. -/
theorem clamp5 : ∀ q : Fin 5, min (BitVec.ofNat 32 q.val).toInt.toNat (5 - 1) = q.val := by
  decide

/-- The reference's index array at node `e`: the node's type `e / 10000`. -/
theorem typeIdx (e : Fin 50000) : val_main_v9 (F := Ideal) (ix2 e (0 : Fin 1)) = BitVec.ofNat 32 (e.val / 10000) := by
  rw [val_main_v9_apply, val_main_v8_apply, val_main_v5_apply, val_main_v7_apply, val_main_v3_apply, val_main_v2_apply,
    val_main_v1_apply, val_main_v4_apply, val_main_c_apply, val_main_v6_apply, val_main_c_0_apply]
  exact sel5 ⟨e.val / 10000, by have := e.isLt; omega⟩

/-- THE TYPE COLUMNS: the reference's gather of the embedding table is the kernel's broadcast-and-reshape of it. -/
theorem typeCols_eq (a5 : (⟨S5x8, .f32⟩ : BufTy).Contents (Elt Ideal)) : val_main_v10 (F := Ideal) a5 = Cert.KernelIdeal.Host.typeCols (F := Ideal) a5 := by
  funext j
  obtain ⟨e, k, rfl⟩ : ∃ (e : Fin 50000) (k : Fin 8), j = ix2 e k := ⟨j 0, j 1, eq_ix2 j⟩
  have he : e.val < 50000 := e.isLt
  have hN : 0 < 5 := by decide
  let q : Fin 5 := ⟨e.val / 10000, by omega⟩
  let r : Fin 10000 := ⟨e.val % 10000, by omega⟩
  unfold val_main_v10 Cert.KernelIdeal.Host.typeCols
  refine (gather_rows_apply hN gather_S5x8_S50000x1_S50000x8_1_0_n_n_0_1_18_wf a5 (val_main_v9 (F := Ideal)) e k).trans ?_
  have hrow : Cert.Lib.RowGatherScatter.rowOf 5 hN (val_main_v9 (F := Ideal)) e = q := Fin.ext (by
    show min (val_main_v9 (F := Ideal) (ix2 e (0 : Fin 1))).toInt.toNat (5 - 1) = e.val / 10000
    rw [typeIdx]
    exact clamp5 q)
  rw [hrow]
  symm
  rw [shapeCast_apply _ Cert.KernelIdeal.Gen.shapeCasts_S5x10000x8_S50000x8 (ix2 e k) (ix3 q r k) (by
    rewrite [Shape.rowMajor_val_three, Shape.rowMajor_val_two]
    show (e.val / 10000 * 10000 + e.val % 10000) * 8 + k.val = e.val * 8 + k.val
    omega)]
  exact broadcastInDim_apply _ Cert.KernelIdeal.Gen.bcast_S5x8_S5x10000x8_0_2 a5 (ix3 q r k) (ix2 q k) (fun a => match a with
    | ⟨0, _⟩ => by show q.val = if (5 : Nat) = 1 then 0 else q.val; rw [if_neg (by decide)]
    | ⟨1, _⟩ => by show k.val = if (8 : Nat) = 1 then 0 else k.val; rw [if_neg (by decide)])

/-! ## The biases -/

/-- A `[128]` bias reshaped to `[1, 128]` is the row the perceptron reads. -/
theorem biasRow_eq (b : (⟨S128, .f32⟩ : BufTy).Contents (Elt Ideal)) : Cert.KernelIdeal.Host.biasRow (F := Ideal) b = Cert.ReferenceIdeal.Layers.rowOf b := by
  funext i
  unfold Cert.KernelIdeal.Host.biasRow Cert.ReferenceIdeal.Layers.rowOf
  exact shapeCast_apply b Cert.KernelIdeal.Gen.shapeCasts_S128_S1x128 i (ix1 (i 1)) (by
    rewrite [Shape.rowMajor_val_one, Shape.rowMajor_val_two]
    have h0 : (i 0).val < 1 := (i 0).isLt
    show (i 1).val = (i 0).val * 128 + (i 1).val
    omega)

/-! ## The reference, layer by layer -/

section
variable (a0 a1 a2 a3 a4 : (⟨S10000x128, .f32⟩ : BufTy).Contents (Elt Ideal)) (a5 : (⟨S5x8, .f32⟩ : BufTy).Contents (Elt Ideal)) (a6 : (⟨S136x128, .f32⟩ : BufTy).Contents (Elt Ideal)) (a7 : (⟨S128, .f32⟩ : BufTy).Contents (Elt Ideal)) (a8 : (⟨S128x128, .f32⟩ : BufTy).Contents (Elt Ideal)) (a9 : (⟨S128, .f32⟩ : BufTy).Contents (Elt Ideal)) (a10 : (⟨S128x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x128, .f32⟩ : BufTy).Contents (Elt Ideal)) (a15 : (⟨S128, .f32⟩ : BufTy).Contents (Elt Ideal)) (a16 : (⟨S128x128, .f32⟩ : BufTy).Contents (Elt Ideal)) (a17 : (⟨S128, .f32⟩ : BufTy).Contents (Elt Ideal)) (a18 : (⟨S2x800000, .i32⟩ : BufTy).Contents (Elt Ideal))

/-- The node features. -/
theorem ref_h0 : val_main_v11 (F := Ideal) a0 a1 a2 a3 a4 a5 = Cert.KernelIdeal.Host.withCols (Cert.KernelIdeal.Host.stack5 a0 a1 a2 a3 a4) (Cert.KernelIdeal.Host.typeCols a5) := by
  unfold val_main_v11
  rw [typeCols_eq]
  rfl

/-- The first layer's aggregate. -/
theorem ref_agg0 : val_main_v26 (F := Ideal) a0 a1 a2 a3 a4 a5 a18
    = Cert.KernelIdeal.Host.agg136 (val_main_v11 (F := Ideal) a0 a1 a2 a3 a4 a5) (Cert.KernelIdeal.Host.src a18) (Cert.KernelIdeal.Host.dst a18) := rfl

/-- The first layer's dense half. -/
theorem ref_mlp0 : val_main_v38 (F := Ideal) a0 a1 a2 a3 a4 a5 a6 a7 a8 a9 a18
    = refMlp136 (val_main_v26 (F := Ideal) a0 a1 a2 a3 a4 a5 a18) a6 a7 a8 a9 := rfl

theorem ref_agg1 : val_main_v49 (F := Ideal) a0 a1 a2 a3 a4 a5 a6 a7 a8 a9 a18
    = Cert.KernelIdeal.Host.agg128 (val_main_v38 (F := Ideal) a0 a1 a2 a3 a4 a5 a6 a7 a8 a9 a18) (Cert.KernelIdeal.Host.src a18) (Cert.KernelIdeal.Host.dst a18) := rfl

theorem ref_mlp1 : val_main_v61 (F := Ideal) a0 a1 a2 a3 a4 a5 a6 a7 a8 a9 a10 a11 a12 a13 a18
    = refMlp128 (val_main_v49 (F := Ideal) a0 a1 a2 a3 a4 a5 a6 a7 a8 a9 a18) a10 a11 a12 a13 := rfl

theorem ref_agg2 : val_main_v72 (F := Ideal) a0 a1 a2 a3 a4 a5 a6 a7 a8 a9 a10 a11 a12 a13 a18
    = Cert.KernelIdeal.Host.agg128 (val_main_v61 (F := Ideal) a0 a1 a2 a3 a4 a5 a6 a7 a8 a9 a10 a11 a12 a13 a18) (Cert.KernelIdeal.Host.src a18) (Cert.KernelIdeal.Host.dst a18) := rfl

theorem ref_mlp2 : val_main_v84 (F := Ideal) a0 a1 a2 a3 a4 a5 a6 a7 a8 a9 a10 a11 a12 a13 a14 a15 a16 a17 a18
    = refMlp128 (val_main_v72 (F := Ideal) a0 a1 a2 a3 a4 a5 a6 a7 a8 a9 a10 a11 a12 a13 a18) a14 a15 a16 a17 := rfl

theorem ref_out : val_main_v85 (F := Ideal) a0 a1 a2 a3 a4 a5 a6 a7 a8 a9 a10 a11 a12 a13 a14 a15 a16 a17 a18
    = Cert.KernelIdeal.Host.firstRows (val_main_v84 (F := Ideal) a0 a1 a2 a3 a4 a5 a6 a7 a8 a9 a10 a11 a12 a13 a14 a15 a16 a17 a18) := rfl

/-- What both programs compute: three rounds of "aggregate over incoming edges, then the perceptron" from the node features,
    the first 10000 rows kept. -/
def gin : (⟨S10000x128, .f32⟩ : BufTy).Contents (Elt Ideal) :=
  Cert.KernelIdeal.Host.firstRows (F := Ideal)
    (Spec.mlp (N := 50000) (C := 128)
      (Cert.KernelIdeal.Host.agg128 (F := Ideal)
        (Spec.mlp (N := 50000) (C := 128)
          (Cert.KernelIdeal.Host.agg128 (F := Ideal)
            (Spec.mlp (N := 50000) (C := 136)
              (Cert.KernelIdeal.Host.agg136 (F := Ideal) (Cert.KernelIdeal.Host.withCols (Cert.KernelIdeal.Host.stack5 a0 a1 a2 a3 a4) (Cert.KernelIdeal.Host.typeCols a5)) (Cert.KernelIdeal.Host.src a18) (Cert.KernelIdeal.Host.dst a18))
              a6 (Cert.KernelIdeal.Host.biasRow a7) a8 (Cert.KernelIdeal.Host.biasRow a9))
            (Cert.KernelIdeal.Host.src a18) (Cert.KernelIdeal.Host.dst a18))
          a10 (Cert.KernelIdeal.Host.biasRow a11) a12 (Cert.KernelIdeal.Host.biasRow a13))
        (Cert.KernelIdeal.Host.src a18) (Cert.KernelIdeal.Host.dst a18))
      a14 (Cert.KernelIdeal.Host.biasRow a15) a16 (Cert.KernelIdeal.Host.biasRow a17))

/-- THE REFERENCE'S RESULT is `gin` of its arguments. -/
theorem ref_eq : val_main_v85 (F := Ideal) a0 a1 a2 a3 a4 a5 a6 a7 a8 a9 a10 a11 a12 a13 a14 a15 a16 a17 a18
    = gin a0 a1 a2 a3 a4 a5 a6 a7 a8 a9 a10 a11 a12 a13 a14 a15 a16 a17 a18 := by
  rw [ref_out, ref_mlp2, refMlp128_eq, ref_agg2, ref_mlp1, refMlp128_eq, ref_agg1, ref_mlp0, refMlp136_eq, ref_agg0, ref_h0]
  simp only [← biasRow_eq]
  rfl

end

/-- `gin` of equal arguments. -/
theorem gin_congr {a0 a0' : (⟨S10000x128, .f32⟩ : BufTy).Contents (Elt Ideal)} {a1 a1' : (⟨S10000x128, .f32⟩ : BufTy).Contents (Elt Ideal)} {a2 a2' : (⟨S10000x128, .f32⟩ : BufTy).Contents (Elt Ideal)} {a3 a3' : (⟨S10000x128, .f32⟩ : BufTy).Contents (Elt Ideal)} {a4 a4' : (⟨S10000x128, .f32⟩ : BufTy).Contents (Elt Ideal)} {a5 a5' : (⟨S5x8, .f32⟩ : BufTy).Contents (Elt Ideal)} {a6 a6' : (⟨S136x128, .f32⟩ : BufTy).Contents (Elt Ideal)} {a7 a7' : (⟨S128, .f32⟩ : BufTy).Contents (Elt Ideal)} {a8 a8' : (⟨S128x128, .f32⟩ : BufTy).Contents (Elt Ideal)} {a9 a9' : (⟨S128, .f32⟩ : BufTy).Contents (Elt Ideal)} {a10 a10' : (⟨S128x128, .f32⟩ : BufTy).Contents (Elt Ideal)} {a11 a11' : (⟨S128, .f32⟩ : BufTy).Contents (Elt Ideal)} {a12 a12' : (⟨S128x128, .f32⟩ : BufTy).Contents (Elt Ideal)} {a13 a13' : (⟨S128, .f32⟩ : BufTy).Contents (Elt Ideal)} {a14 a14' : (⟨S128x128, .f32⟩ : BufTy).Contents (Elt Ideal)} {a15 a15' : (⟨S128, .f32⟩ : BufTy).Contents (Elt Ideal)} {a16 a16' : (⟨S128x128, .f32⟩ : BufTy).Contents (Elt Ideal)} {a17 a17' : (⟨S128, .f32⟩ : BufTy).Contents (Elt Ideal)} {a18 a18' : (⟨S2x800000, .i32⟩ : BufTy).Contents (Elt Ideal)}
    (h0 : a0 = a0') (h1 : a1 = a1') (h2 : a2 = a2') (h3 : a3 = a3') (h4 : a4 = a4') (h5 : a5 = a5') (h6 : a6 = a6') (h7 : a7 = a7') (h8 : a8 = a8') (h9 : a9 = a9') (h10 : a10 = a10') (h11 : a11 = a11') (h12 : a12 = a12') (h13 : a13 = a13') (h14 : a14 = a14') (h15 : a15 = a15') (h16 : a16 = a16') (h17 : a17 = a17') (h18 : a18 = a18') :
    gin a0 a1 a2 a3 a4 a5 a6 a7 a8 a9 a10 a11 a12 a13 a14 a15 a16 a17 a18 = gin a0' a1' a2' a3' a4' a5' a6' a7' a8' a9' a10' a11' a12' a13' a14' a15' a16' a17' a18' := by
  subst h0 h1 h2 h3 h4 h5 h6 h7 h8 h9 h10 h11 h12 h13 h14 h15 h16 h17 h18; rfl

end Cert.Bridge

end
-- ==== Proof.KernelIdealResult.lean ====
/-
  The idealized kernel's result, at the exact instance: following the buffers' contents boundary by boundary — each region's
  output the perceptron of what it read, each host stretch the aggregate of the region before it, the weights and biases
  the launch contents (nothing writes them) — the result buffer ends at `gin` of the argument arrays.
-/
import proofs.«104975_j87686052315190_1_alg».proof.Proof.KernelIdealRun
import proofs.«104975_j87686052315190_1_alg».proof.Proof.KernelIdealValue
import proofs.«104975_j87686052315190_1_alg».proof.Proof.KernelIdealHost
import proofs.«104975_j87686052315190_1_alg».proof.Proof.Bridge

set_option maxRecDepth 16384

noncomputable section

namespace Cert.KernelIdeal.Result

open Cert.KernelIdeal Cert.KernelIdeal.Gen Cert.KernelIdeal.GenP Cert.KernelIdeal.Regions Cert.KernelIdeal.Run Cert.KernelIdeal.Value Cert.KernelIdeal.Host
open Idealize.ShloMosaic Idealize.ShloMosaic.TcCoe
open Idealize.SL Idealize.SL.Sem

variable (m : (ℓ : Loc nD τ sig) → Buf (Elt Ideal) ℓ) (ρ : Dev nD → PrngReg)

/-! ## Buffers no one has written yet hold their launch contents -/

theorem W1_arg (c : Dev nD) (b : Ref sig .tc) (h0 : b ∉ hostOps0_W) : W1 m c (Proc.devRef .tc b) = m ((c : Thread nD τ).loc b) :=
  StableHlo.after_of_writes_sub hostOps0 _ hostOps0_writes h0
theorem W2_arg (c : Dev nD) (b : Ref sig .tc) (h0 : b ∉ hostOps0_W) (hb0 : b ≠ main_v21) : W2 m c (Proc.devRef .tc b) = m ((c : Thread nD τ).loc b) :=
  (W2_keep m c b hb0).trans (W1_arg m c b h0)
theorem W3_arg (c : Dev nD) (b : Ref sig .tc) (h0 : b ∉ hostOps0_W) (h1 : b ∉ hostOps1_W) (hb0 : b ≠ main_v21) : W3 m c (Proc.devRef .tc b) = m ((c : Thread nD τ).loc b) :=
  (StableHlo.after_of_writes_sub hostOps1 _ hostOps1_writes h1).trans (W2_arg m c b h0 hb0)
theorem W4_arg (c : Dev nD) (b : Ref sig .tc) (h0 : b ∉ hostOps0_W) (h1 : b ∉ hostOps1_W) (hb0 : b ≠ main_v21) (hb1 : b ≠ main_v35) : W4 m c (Proc.devRef .tc b) = m ((c : Thread nD τ).loc b) :=
  (W4_keep m c b hb1).trans (W3_arg m c b h0 h1 hb0)
theorem W5_arg (c : Dev nD) (b : Ref sig .tc) (h0 : b ∉ hostOps0_W) (h1 : b ∉ hostOps1_W) (h2 : b ∉ hostOps2_W) (hb0 : b ≠ main_v21) (hb1 : b ≠ main_v35) : W5 m c (Proc.devRef .tc b) = m ((c : Thread nD τ).loc b) :=
  (StableHlo.after_of_writes_sub hostOps2 _ hostOps2_writes h2).trans (W4_arg m c b h0 h1 hb0 hb1)
/-- The edges' sources and destinations, written before the first region, are still there at the later boundaries. -/
theorem W2_from1 (c : Dev nD) (b : Ref sig .tc) (hb0 : b ≠ main_v21) : W2 m c (Proc.devRef .tc b) = W1 m c (Proc.devRef .tc b) := W2_keep m c b hb0
theorem W4_from1 (c : Dev nD) (b : Ref sig .tc) (h1 : b ∉ hostOps1_W) (hb0 : b ≠ main_v21) (hb1 : b ≠ main_v35) : W4 m c (Proc.devRef .tc b) = W1 m c (Proc.devRef .tc b) :=
  (W4_keep m c b hb1).trans ((StableHlo.after_of_writes_sub hostOps1 _ hostOps1_writes h1).trans (W2_keep m c b hb0))

/-- The perceptron of equal arrays. -/
theorem mlp_congr {N C : ℕ} {z z' : (⟨2, ![N, C]⟩ : Shape).Idx → EReal} {w0 w0' : (⟨2, ![C, 128]⟩ : Shape).Idx → EReal}
    {b0 b0' : (⟨2, ![1, 128]⟩ : Shape).Idx → EReal} {w1 w1' : (⟨2, ![128, 128]⟩ : Shape).Idx → EReal} {b1 b1' : (⟨2, ![1, 128]⟩ : Shape).Idx → EReal}
    (hz : z = z') (h0 : w0 = w0') (hb0 : b0 = b0') (h1 : w1 = w1') (hb1 : b1 = b1') :
    Spec.mlp z w0 b0 w1 b1 = Spec.mlp z' w0' b0' w1' b1' := by
  subst hz h0 hb0 h1 hb1; rfl

/-! ## The result buffer -/

/-- THE RESULT: the last boundary's contents of the result buffer is `gin` of the launch contents of the arguments. -/
theorem result (c : Dev nD) : W7 m c (Proc.devRef .tc main_v50) = Cert.Bridge.gin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  -- the first region's inputs
  have f1 : V1 m c main_v18 = agg136 (withCols (stack5 (m ((c : Thread nD τ).loc main_arg0)) (m ((c : Thread nD τ).loc main_arg1)) (m ((c : Thread nD τ).loc main_arg2)) (m ((c : Thread nD τ).loc main_arg3)) (m ((c : Thread nD τ).loc main_arg4))) (typeCols (m ((c : Thread nD τ).loc main_arg5))))
      (src (m ((c : Thread nD τ).loc main_arg18))) (dst (m ((c : Thread nD τ).loc main_arg18))) := host0_feat (W0 m c)
  have s1 : W1 m c (Proc.devRef .tc main_v5) = src (m ((c : Thread nD τ).loc main_arg18)) := host0_src (W0 m c)
  have d1 : W1 m c (Proc.devRef .tc main_v7) = dst (m ((c : Thread nD τ).loc main_arg18)) := host0_dst (W0 m c)
  have b10 : V1 m c main_v19 = biasRow (m ((c : Thread nD τ).loc main_arg7)) := host0_b0 (W0 m c)
  have b11 : V1 m c main_v20 = biasRow (m ((c : Thread nD τ).loc main_arg9)) := host0_b1 (W0 m c)
  have w10 : V1 m c main_arg6 = m ((c : Thread nD τ).loc main_arg6) := W1_arg m c main_arg6 (by decide)
  have w11 : V1 m c main_arg8 = m ((c : Thread nD τ).loc main_arg8) := W1_arg m c main_arg8 (by decide)
  -- region 0's output
  have o1 : W2 m c (Proc.devRef .tc main_v21) = Spec.mlp (N := 50000) (C := 136) (V1 m c main_v18) (V1 m c main_arg6) (V1 m c main_v19) (V1 m c main_arg8) (V1 m c main_v20) :=
    (W2_arr m c 5).trans (final0 (V1 m) c)
  -- the second region's inputs
  have f2 : V3 m c main_v32 = agg128 (W2 m c (Proc.devRef .tc main_v21)) (W2 m c (Proc.devRef .tc main_v5)) (W2 m c (Proc.devRef .tc main_v7)) := host1_feat (W2 m c)
  have s2 : W2 m c (Proc.devRef .tc main_v5) = src (m ((c : Thread nD τ).loc main_arg18)) := (W2_from1 m c main_v5 (by decide)).trans s1
  have d2 : W2 m c (Proc.devRef .tc main_v7) = dst (m ((c : Thread nD τ).loc main_arg18)) := (W2_from1 m c main_v7 (by decide)).trans d1
  have b20 : V3 m c main_v33 = biasRow (m ((c : Thread nD τ).loc main_arg11)) := (host1_b0 (W2 m c)).trans (congrArg biasRow (W2_arg m c main_arg11 (by decide) (by decide)))
  have b21 : V3 m c main_v34 = biasRow (m ((c : Thread nD τ).loc main_arg13)) := (host1_b1 (W2 m c)).trans (congrArg biasRow (W2_arg m c main_arg13 (by decide) (by decide)))
  have w20 : V3 m c main_arg10 = m ((c : Thread nD τ).loc main_arg10) := W3_arg m c main_arg10 (by decide) (by decide) (by decide)
  have w21 : V3 m c main_arg12 = m ((c : Thread nD τ).loc main_arg12) := W3_arg m c main_arg12 (by decide) (by decide) (by decide)
  have o2 : W4 m c (Proc.devRef .tc main_v35) = Spec.mlp (N := 50000) (C := 128) (V3 m c main_v32) (V3 m c main_arg10) (V3 m c main_v33) (V3 m c main_arg12) (V3 m c main_v34) :=
    (W4_arr m c 5).trans (final1 (V3 m) c)
  -- the third region's inputs
  have f3 : V5 m c main_v46 = agg128 (W4 m c (Proc.devRef .tc main_v35)) (W4 m c (Proc.devRef .tc main_v5)) (W4 m c (Proc.devRef .tc main_v7)) := host2_feat (W4 m c)
  have s3 : W4 m c (Proc.devRef .tc main_v5) = src (m ((c : Thread nD τ).loc main_arg18)) := (W4_from1 m c main_v5 (by decide) (by decide) (by decide)).trans s1
  have d3 : W4 m c (Proc.devRef .tc main_v7) = dst (m ((c : Thread nD τ).loc main_arg18)) := (W4_from1 m c main_v7 (by decide) (by decide) (by decide)).trans d1
  have b30 : V5 m c main_v47 = biasRow (m ((c : Thread nD τ).loc main_arg15)) := (host2_b0 (W4 m c)).trans (congrArg biasRow (W4_arg m c main_arg15 (by decide) (by decide) (by decide) (by decide)))
  have b31 : V5 m c main_v48 = biasRow (m ((c : Thread nD τ).loc main_arg17)) := (host2_b1 (W4 m c)).trans (congrArg biasRow (W4_arg m c main_arg17 (by decide) (by decide) (by decide) (by decide)))
  have w30 : V5 m c main_arg14 = m ((c : Thread nD τ).loc main_arg14) := W5_arg m c main_arg14 (by decide) (by decide) (by decide) (by decide) (by decide)
  have w31 : V5 m c main_arg16 = m ((c : Thread nD τ).loc main_arg16) := W5_arg m c main_arg16 (by decide) (by decide) (by decide) (by decide) (by decide)
  have o3 : W6 m c (Proc.devRef .tc main_v49) = Spec.mlp (N := 50000) (C := 128) (V5 m c main_v46) (V5 m c main_arg14) (V5 m c main_v47) (V5 m c main_arg16) (V5 m c main_v48) :=
    (W6_arr m c 5).trans (final2 (V5 m) c)
  -- the result
  have r7 : W7 m c (Proc.devRef .tc main_v50) = firstRows (W6 m c (Proc.devRef .tc main_v49)) := host3_result (W6 m c)
  -- composed by congruence, innermost first (the boundary contents are folds over the host operations: never searched)
  have o1' := o1.trans (mlp_congr f1 w10 b10 w11 b11)
  have f2' := f2.trans (congr (congr (congrArg (agg128 (F := Ideal)) o1') s2) d2)
  have o2' := o2.trans (mlp_congr f2' w20 b20 w21 b21)
  have f3' := f3.trans (congr (congr (congrArg (agg128 (F := Ideal)) o2') s3) d3)
  have o3' := o3.trans (mlp_congr f3' w30 b30 w31 b31)
  exact r7.trans (congrArg (firstRows (F := Ideal)) o3')

/-- THE RUN with its result: every weakly fair execution terminates with the result buffer at `gin` of the arguments' launch
    contents and every argument array unchanged. -/
theorem run : θ_run defs (onTc (τ := τ) (main (F := Ideal))) ⟨m, fun _ => 0, ρ⟩ (fun r => ∀ c : Dev nD,
      r.2.mem ((c.tc : Thread nD τ).loc main_v50) = Cert.Bridge.gin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_v50 (by decide))).trans (result m c),
      (h c _ (mem_uc main_arg0 (by decide))).trans (W7_launch m c main_arg0 (by decide) (by decide) (by decide) (by decide) (by decide) (by decide) (by decide)),
      (h c _ (mem_uc main_arg1 (by decide))).trans (W7_launch m c main_arg1 (by decide) (by decide) (by decide) (by decide) (by decide) (by decide) (by decide)),
      (h c _ (mem_uc main_arg2 (by decide))).trans (W7_launch m c main_arg2 (by decide) (by decide) (by decide) (by decide) (by decide) (by decide) (by decide)),
      (h c _ (mem_uc main_arg3 (by decide))).trans (W7_launch m c main_arg3 (by decide) (by decide) (by decide) (by decide) (by decide) (by decide) (by decide)),
      (h c _ (mem_uc main_arg4 (by decide))).trans (W7_launch m c main_arg4 (by decide) (by decide) (by decide) (by decide) (by decide) (by decide) (by decide)),
      (h c _ (mem_uc main_arg5 (by decide))).trans (W7_launch m c main_arg5 (by decide) (by decide) (by decide) (by decide) (by decide) (by decide) (by decide)),
      (h c _ (mem_uc main_arg6 (by decide))).trans (W7_launch m c main_arg6 (by decide) (by decide) (by decide) (by decide) (by decide) (by decide) (by decide)),
      (h c _ (mem_uc main_arg7 (by decide))).trans (W7_launch m c main_arg7 (by decide) (by decide) (by decide) (by decide) (by decide) (by decide) (by decide)),
      (h c _ (mem_uc main_arg8 (by decide))).trans (W7_launch m c main_arg8 (by decide) (by decide) (by decide) (by decide) (by decide) (by decide) (by decide)),
      (h c _ (mem_uc main_arg9 (by decide))).trans (W7_launch m c main_arg9 (by decide) (by decide) (by decide) (by decide) (by decide) (by decide) (by decide)),
      (h c _ (mem_uc main_arg10 (by decide))).trans (W7_launch m c main_arg10 (by decide) (by decide) (by decide) (by decide) (by decide) (by decide) (by decide)),
      (h c _ (mem_uc main_arg11 (by decide))).trans (W7_launch m c main_arg11 (by decide) (by decide) (by decide) (by decide) (by decide) (by decide) (by decide)),
      (h c _ (mem_uc main_arg12 (by decide))).trans (W7_launch m c main_arg12 (by decide) (by decide) (by decide) (by decide) (by decide) (by decide) (by decide)),
      (h c _ (mem_uc main_arg13 (by decide))).trans (W7_launch m c main_arg13 (by decide) (by decide) (by decide) (by decide) (by decide) (by decide) (by decide)),
      (h c _ (mem_uc main_arg14 (by decide))).trans (W7_launch m c main_arg14 (by decide) (by decide) (by decide) (by decide) (by decide) (by decide) (by decide)),
      (h c _ (mem_uc main_arg15 (by decide))).trans (W7_launch m c main_arg15 (by decide) (by decide) (by decide) (by decide) (by decide) (by decide) (by decide)),
      (h c _ (mem_uc main_arg16 (by decide))).trans (W7_launch m c main_arg16 (by decide) (by decide) (by decide) (by decide) (by decide) (by decide) (by decide)),
      (h c _ (mem_uc main_arg17 (by decide))).trans (W7_launch m c main_arg17 (by decide) (by decide) (by decide) (by decide) (by decide) (by decide) (by decide)),
      (h c _ (mem_uc main_arg18 (by decide))).trans (W7_launch m c main_arg18 (by decide) (by decide) (by decide) (by decide) (by decide) (by decide) (by decide))⟩)
    (run_all m ρ)

end Cert.KernelIdeal.Result

end
-- ==== Proof.lean ====
/-
  The certificate of a three-layer graph-isomorphism network, one pallas_call per layer's dense half, against its jnp
  reference.

  Both programs build the node features `h₀` (five node types' features stacked, each type's embedding row beside its 10000
  nodes) and then do three rounds of: aggregate `h + ∑_{edges into the node} h[source]` on the host (a row gather and a
  scatter-add), then the perceptron `max (max (z · w₀ + b₀) 0 · w₁ + b₁) 0` of every row; the first 10000 rows are the result.
  The kernel computes the perceptron in 25 blocks of 2000 rows, with bf16 roundings on the way into its two matrix
  products; on the extended reals the roundings are the identity, a block's perceptron is the block of the perceptron, and
  the blocks cover the array, so each region's output is the reference's dense half of its input, and the two results are
  one function `Bridge.gin` of the arguments.  No law beyond the definitions of the operations is used: the precondition is
  never opened.

  The frames: the kernels' (at the word level and at the exact instance) by the run of @main's seven segments, in which no
  argument array is ever written; the reference's by its run.  The idealization rewrote nothing, so `preserves` is `True`.
-/
import proofs.«104975_j87686052315190_1_alg».proof.Defs
import proofs.«104975_j87686052315190_1_alg».proof.Proof.Gen.Kernel
import proofs.«104975_j87686052315190_1_alg».proof.Proof.Gen.KernelIdeal
import proofs.«104975_j87686052315190_1_alg».proof.Proof.Gen.ReferenceIdeal
import proofs.«104975_j87686052315190_1_alg».proof.Proof.Gen.Pre_finite_inputs
import proofs.«104975_j87686052315190_1_alg».proof.Proof.Gen.ReferenceIdeal.Run
import proofs.«104975_j87686052315190_1_alg».proof.Proof.Gen.ReferenceIdeal.Read
import proofs.«104975_j87686052315190_1_alg».proof.Proof.KernelRun
import proofs.«104975_j87686052315190_1_alg».proof.Proof.KernelIdealResult
import proofs.«104975_j87686052315190_1_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Run.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Run.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the result buffer at `Bridge.gin` of the arguments: the kernel's by following its
    buffers through the regions, the reference's by its run read layer by layer; the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  -- the reference's result, read layer by layer, at the kernel's arguments
  have href : ∀ c : Dev Cert.ReferenceIdeal.nD, Cert.ReferenceIdeal.Value.res_main_v85 m' c
      = Cert.Bridge.gin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := fun c => by
    exact (Cert.ReferenceIdeal.Read.val_main_v85_eq m' c).trans ((Cert.Bridge.ref_eq _ _ _ _ _ _ _ _ _ _ _ _ _ _ _ _ _ _ _).trans
      (Cert.Bridge.gin_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2))
  refine ⟨fun c => Cert.Bridge.gin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact Cert.KernelIdeal.Result.run m ρ
  · exact (θ_run Cert.ReferenceIdeal.defs _ _).mono (fun _ h c => ⟨(h c).1.trans (href c), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
